-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S2x65536 : Shape := ⟨2, ![2, 65536]⟩
abbrev S65536 : Shape := ⟨1, ![65536]⟩
abbrev S32768 : Shape := ⟨1, ![32768]⟩
abbrev S1024x1024 : Shape := ⟨2, ![1024, 1024]⟩
abbrev S2x1024x1024 : Shape := ⟨3, ![2, 1024, 1024]⟩
abbrev S1024 : Shape := ⟨1, ![1024]⟩
abbrev S1024x2 : Shape := ⟨2, ![1024, 2]⟩
abbrev S2 : Shape := ⟨1, ![2]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S1024 : S_.BroadcastsInDim S1024 (![] : Fin 0 → Fin S1024.rank)
  reducesTo_S1024_S_d0 : S1024.ReducesTo [0] S_
  bcast_S_S1024x2 : S_.BroadcastsInDim S1024x2 (![] : Fin 0 → Fin S1024x2.rank)
  reducesTo_S1024x2_S_d0_1 : S1024x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg11 : FVec F S2 .f32) (main_v33 : IVec S_ 1) : IVec S_ 1 :=
  let main_v34 : FVec F S2 .f32 := Host.absf main_arg11
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg8 : FVec F S1024x2 .f32) (main_arg9 : FVec F S2 .f32) (main_arg10 : FVec F S1024x2 .f32) (main_arg11 : FVec F S2 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2 .f32 := Host.absf main_arg8
  let main_cst_6 : FVec F S_ .f32 := constant S_ .f32 0x7F800000#32
  let main_v20 : FVec F S1024x2 .f32 := broadcastInDim S1024x2 ![] bcast_S_S1024x2 main_cst_6
  let main_v21 : IVec S1024x2 1 := cmpf .olt main_v19 main_v20
  let main_c_7 : IVec S_ 1 := constantI S_ 1 1#1
  let main_v22 : IVec S_ 1 := (fun x v => Host.reduce IntOp.andi x v reducesTo_S1024x2_S_d0_1 h_S_) main_v21 main_c_7
  let main_v23 : IVec S_ 1 := andi main_v18 main_v22
  let main_v24 : FVec F S2 .f32 := Host.absf main_arg9
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S1024x2 .f32 := Host.absf main_arg10
  let main_cst_10 : FVec F S_ .f32 := constant S_ .f32 0x7F800000#32
  let main_v30 : FVec F S1024x2 .f32 := broadcastInDim S1024x2 ![] bcast_S_S1024x2 main_cst_10
  let main_v31 : IVec S1024x2 1 := cmpf .olt main_v29 main_v30
  let main_c_11 : IVec S_ 1 := constantI S_ 1 1#1
  let main_v32 : IVec S_ 1 := (fun x v => Host.reduce IntOp.andi x v reducesTo_S1024x2_S_d0_1 h_S_) main_v31 main_c_11
  let main_v33 : IVec S_ 1 := andi main_v28 main_v32
  fn_part2 (F := F) main_arg11 main_v33

def fn {F : FTy → Type} [FloatOps F] (main_arg0 : FVec F S50000x1024 .f32) (main_arg1 : IVec S2x65536 32) (main_arg2 : IVec S65536 32) (main_arg3 : IVec S32768 32) (main_arg4 : IVec S32768 32) (main_arg5 : FVec F S1024x1024 .f32) (main_arg6 : FVec F S2x1024x1024 .f32) (main_arg7 : FVec F S1024 .f32) (main_arg8 : FVec F S1024x2 .f32) (main_arg9 : FVec F S2 .f32) (main_arg10 : FVec F S1024x2 .f32) (main_arg11 : FVec F S2 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S1024x1024 .f32 := Host.absf main_arg5
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2x1024x1024 .f32 := Host.absf main_arg6
  let main_cst_2 : FVec F S_ .f32 := constant S_ .f32 0x7F800000#32
  let main_v10 : FVec F S2x1024x1024 .f32 := broadcastInDim S2x1024x1024 ![] bcast_S_S2x1024x1024 main_cst_2
  let main_v11 : IVec S2x1024x1024 1 := cmpf .olt main_v9 main_v10
  let main_c_3 : IVec S_ 1 := constantI S_ 1 1#1
  let main_v12 : IVec S_ 1 := (fun x v => Host.reduce IntOp.andi x v reducesTo_S2x1024x1024_S_d0_1_2 h_S_) main_v11 main_c_3
  let main_v13 : IVec S_ 1 := andi main_v8 main_v12
  let main_v14 : FVec F S1024 .f32 := Host.absf main_arg7
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg8 main_arg9 main_arg10 main_arg11 main_v13 main_v16
-- ==== Kernel.lean ====
abbrev S50000x1024 : Shape := ⟨2, ![50000, 1024]⟩
abbrev S2x65536 : Shape := ⟨2, ![2, 65536]⟩
abbrev S65536 : Shape := ⟨1, ![65536]⟩
abbrev S32768 : Shape := ⟨1, ![32768]⟩
abbrev S1024x1024 : Shape := ⟨2, ![1024, 1024]⟩
abbrev S2x1024x1024 : Shape := ⟨3, ![2, 1024, 1024]⟩
abbrev S1024 : Shape := ⟨1, ![1024]⟩
abbrev S1024x2 : Shape := ⟨2, ![1024, 2]⟩
abbrev S2 : Shape := ⟨1, ![2]⟩
abbrev S1x65536 : Shape := ⟨2, ![1, 65536]⟩
abbrev S_ : Shape := ⟨0, ![]⟩
abbrev S65536x1 : Shape := ⟨2, ![65536, 1]⟩
abbrev S65536x1024 : Shape := ⟨2, ![65536, 1024]⟩
abbrev S50000x1 : Shape := ⟨2, ![50000, 1]⟩
abbrev S1x1024x1024 : Shape := ⟨3, ![1, 1024, 1024]⟩
abbrev S50000x2 : Shape := ⟨2, ![50000, 2]⟩
abbrev S1000x1024 : Shape := ⟨2, ![1000, 1024]⟩
abbrev S1000x2 : Shape := ⟨2, ![1000, 2]⟩
abbrev S1x1024 : Shape := ⟨2, ![1, 1024]⟩
abbrev S1x2 : Shape := ⟨2, ![1, 2]⟩
abbrev S32768x1 : Shape := ⟨2, ![32768, 1]⟩
abbrev S32768x2 : Shape := ⟨2, ![32768, 2]⟩

abbrev nBuf : Space → Nat
  | .hbm => 132
  | .vmem => 18
  | .smem => 0
  | _ => 0

abbrev hbmTy0_0 (i : Nat) : BufTy := match i % 128 with
  | 0 => ⟨S50000x1024, .f32⟩
  | 1 => ⟨S2x65536, .i32⟩
  | 2 => ⟨S65536, .i32⟩
  | 3 => ⟨S32768, .i32⟩
  | 4 => ⟨S32768, .i32⟩
  | 5 => ⟨S1024x1024, .f32⟩
  | 6 => ⟨S2x1024x1024, .f32⟩
  | 7 => ⟨S1024, .f32⟩
  | 8 => ⟨S1024x2, .f32⟩
  | 9 => ⟨S2, .f32⟩
  | 10 => ⟨S1024x2, .f32⟩
  | 11 => ⟨S2, .f32⟩
  | 12 => ⟨S1x65536, .i32⟩
  | 13 => ⟨S65536, .i32⟩
  | 14 => ⟨S1x65536, .i32⟩
  | 15 => ⟨S65536, .i32⟩
  | 16 => ⟨S_, .i32⟩
  | 17 => ⟨S65536, .i32⟩
  | 18 => ⟨S65536, .i1⟩
  | 19 => ⟨S_, .i32⟩
  | 20 => ⟨S65536, .i32⟩
  | 21 => ⟨S65536, .i32⟩
  | 22 => ⟨S65536, .i32⟩
  | 23 => ⟨S65536x1, .i32⟩
  | 24 => ⟨S65536x1024, .f32⟩
  | 25 => ⟨S_, .i32⟩
  | 26 => ⟨S65536, .i32⟩
  | 27 => ⟨S65536, .i1⟩
  | 28 => ⟨S65536, .f32⟩
  | 29 => ⟨S65536x1, .f32⟩
  | 30 => ⟨S65536x1024, .f32⟩
  | 31 => ⟨S65536x1024, .f32⟩
  | 32 => ⟨S_, .f32⟩
  | 33 => ⟨S50000x1024, .f32⟩
  | 34 => ⟨S65536x1, .i32⟩
  | 35 => ⟨S50000x1024, .f32⟩
  | 36 => ⟨S_, .f32⟩
  | 37 => ⟨S50000x1, .f32⟩
  | 38 => ⟨S65536x1, .i32⟩
  | 39 => ⟨S50000x1, .f32⟩
  | 40 => ⟨S_, .f32⟩
  | 41 => ⟨S_, .f32⟩
  | 42 => ⟨S50000x1, .f32⟩
  | 43 => ⟨S50000x1, .f32⟩
  | 44 => ⟨S50000x1024, .f32⟩
  | 45 => ⟨S50000x1024, .f32⟩
  | 46 => ⟨S50000x1024, .bf16⟩
  | 47 => ⟨S_, .i32⟩
  | 48 => ⟨S65536, .i32⟩
  | 49 => ⟨S65536, .i1⟩
  | 50 => ⟨S65536, .f32⟩
  | 51 => ⟨S65536x1, .f32⟩
  | 52 => ⟨S65536x1024, .f32⟩
  | 53 => ⟨S65536x1024, .f32⟩
  | 54 => ⟨S_, .f32⟩
  | 55 => ⟨S50000x1024, .f32⟩
  | 56 => ⟨S65536x1, .i32⟩
  | 57 => ⟨S50000x1024, .f32⟩
  | 58 => ⟨S_, .f32⟩
  | 59 => ⟨S50000x1, .f32⟩
  | 60 => ⟨S65536x1, .i32⟩
  | 61 => ⟨S50000x1, .f32⟩
  | 62 => ⟨S_, .f32⟩
  | 63 => ⟨S_, .f32⟩
  | 64 => ⟨S50000x1, .f32⟩
  | 65 => ⟨S50000x1, .f32⟩
  | 66 => ⟨S50000x1024, .f32⟩
  | 67 => ⟨S50000x1024, .f32⟩
  | 68 => ⟨S50000x1024, .bf16⟩
  | 69 => ⟨S50000x1024, .bf16⟩
  | 70 => ⟨S1024x1024, .bf16⟩
  | 71 => ⟨S2x1024x1024, .bf16⟩
  | 72 => ⟨S1024x2, .bf16⟩
  | 73 => ⟨S1024x2, .bf16⟩
  | 74 => ⟨S1x1024x1024, .bf16⟩
  | 75 => ⟨S1024x1024, .bf16⟩
  | 76 => ⟨S1x1024x1024, .bf16⟩
  | 77 => ⟨S1024x1024, .bf16⟩
  | 78 => ⟨S50000x2, .f32⟩
  | 79 => ⟨S50000x2, .f32⟩
  | 80 => ⟨S_, .i32⟩
  | 81 => ⟨S32768, .i32⟩
  | 82 => ⟨S32768, .i1⟩
  | 83 => ⟨S_, .i32⟩
  | 84 => ⟨S32768, .i32⟩
  | 85 => ⟨S32768, .i32⟩
  | 86 => ⟨S32768, .i32⟩
  | 87 => ⟨S32768x1, .i32⟩
  | 88 => ⟨S32768x2, .f32⟩
  | 89 => ⟨S_, .i32⟩
  | 90 => ⟨S32768, .i32⟩
  | 91 => ⟨S32768, .i1⟩
  | 92 => ⟨S_, .i32⟩
  | 93 => ⟨S32768, .i32⟩
  | 94 => ⟨S32768, .i32⟩
  | 95 => ⟨S32768, .i32⟩
  | 96 => ⟨S32768x1, .i32⟩
  | 97 => ⟨S32768x2, .f32⟩
  | 98 => ⟨S_, .f32⟩
  | 99 => ⟨S32768, .f32⟩
  | 100 => ⟨S_, .f32⟩
  | 101 => ⟨S32768, .f32⟩
  | 102 => ⟨S32768, .f32⟩
  | 103 => ⟨S32768x1, .f32⟩
  | 104 => ⟨S32768x2, .f32⟩
  | 105 => ⟨S32768x2, .f32⟩
  | 106 => ⟨S32768x2, .f32⟩
  | 107 => ⟨S_, .f32⟩
  | 108 => ⟨S32768, .f32⟩
  | 109 => ⟨S32768x1, .f32⟩
  | 110 => ⟨S32768x1, .f32⟩
  | 111 => ⟨S32768x2, .f32⟩
  | 112 => ⟨S32768x2, .f32⟩
  | 113 => ⟨S32768x1, .f32⟩
  | 114 => ⟨S32768, .f32⟩
  | 115 => ⟨S_, .f32⟩
  | 116 => ⟨S32768, .f32⟩
  | 117 => ⟨S_, .f32⟩
  | 118 => ⟨S32768, .f32⟩
  | 119 => ⟨S32768, .f32⟩
  | 120 => ⟨S32768x1, .f32⟩
  | 121 => ⟨S32768x2, .f32⟩
  | 122 => ⟨S32768x2, .f32⟩
  | 123 => ⟨S32768x2, .f32⟩
  | 124 => ⟨S_, .f32⟩
  | 125 => ⟨S32768, .f32⟩
  | 126 => ⟨S32768x1, .f32⟩
  | 127 => ⟨S32768x1, .f32⟩
  | _ => ⟨S50000x1024, .f32⟩

abbrev hbmTy0_1 (i : Nat) : BufTy := match i % 128 with
  | 0 => ⟨S32768x2, .f32⟩
  | 1 => ⟨S32768x2, .f32⟩
  | 2 => ⟨S32768x1, .f32⟩
  | 3 => ⟨S32768, .f32⟩
  | _ => ⟨S50000x1024, .f32⟩

abbrev hbmTy (i : Nat) : BufTy := match i / 128 with
  | 0 => hbmTy0_0 i
  | 1 => hbmTy0_1 i
  | _ => ⟨S50000x1024, .f32⟩

abbrev bufTy : (tb : Table) → Fin (tcTables nBuf tb) → BufTy
  | .hbm, ⟨i, _⟩ => hbmTy i
  | .local _ .vmem, ⟨0, _⟩ => ⟨S1000x1024, .bf16⟩
  | .local _ .vmem, ⟨1, _⟩ => ⟨S1000x1024, .bf16⟩
  | .local _ .vmem, ⟨2, _⟩ => ⟨S1000x1024, .bf16⟩
  | .local _ .vmem, ⟨3, _⟩ => ⟨S1000x1024, .bf16⟩
  | .local _ .vmem, ⟨4, _⟩ => ⟨S1000x1024, .bf16⟩
  | .local _ .vmem, ⟨5, _⟩ => ⟨S1000x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024, .f32⟩
  | .local _ .vmem, ⟨10, _⟩ => ⟨S1024x2, .bf16⟩
  | .local _ .vmem, ⟨11, _⟩ => ⟨S1024x2, .bf16⟩
  | .local _ .vmem, ⟨12, _⟩ => ⟨S2, .f32⟩
  | .local _ .vmem, ⟨13, _⟩ => ⟨S2, .f32⟩
  | .local _ .vmem, ⟨14, _⟩ => ⟨S1000x2, .f32⟩
  | .local _ .vmem, ⟨15, _⟩ => ⟨S1000x2, .f32⟩
  | .local _ .vmem, ⟨16, _⟩ => ⟨S1000x2, .f32⟩
  | .local _ .vmem, ⟨17, _⟩ => ⟨S1000x2, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_call1_v0 : Ref sig .tc := ⟨.hbm, 63, rfl⟩
abbrev main_call1_v1 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52_0 : Ref sig .tc := ⟨.hbm, 78, rfl⟩
abbrev main_v52_1 : Ref sig .tc := ⟨.hbm, 79, rfl⟩
abbrev main_c_8 : Ref sig .tc := ⟨.hbm, 80, rfl⟩
abbrev main_v53 : Ref sig .tc := ⟨.hbm, 81, rfl⟩
abbrev main_v54 : Ref sig .tc := ⟨.hbm, 82, rfl⟩
abbrev main_c_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_cst : Ref sig .tc := ⟨.hbm, 98, rfl⟩
abbrev main_call2_v0 : Ref sig .tc := ⟨.hbm, 99, rfl⟩
abbrev main_call2_cst_0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_cst_1 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_call3_cst : Ref sig .tc := ⟨.hbm, 115, rfl⟩
abbrev main_call3_v0 : Ref sig .tc := ⟨.hbm, 116, rfl⟩
abbrev main_call3_cst_0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_v6 : Ref sig .tc := ⟨.hbm, 123, rfl⟩
abbrev main_call3_cst_1 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1000x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1024_0_1 : S65536x1.BroadcastsInDim S65536x1024 (![0, 1] : Fin 2 → Fin S65536x1024.rank)
  bcast_S_S50000x1024 : S_.BroadcastsInDim S50000x1024 (![] : Fin 0 → Fin S50000x1024.rank)
  bcast_S_S50000x1 : S_.BroadcastsInDim S50000x1 (![] : Fin 0 → Fin S50000x1.rank)
  bcast_S50000x1_S50000x1024_0_1 : S50000x1.BroadcastsInDim S50000x1024 (![0, 1] : Fin 2 → Fin S50000x1024.rank)
  bitsLt_bf16_f32 : FTy.bits .bf16 < FTy.bits .f32
  slices_S2x1024x1024_S1x1024x1024_0_0_0 : S2x1024x1024.Slices ![0, 0, 0] S1x1024x1024
  shapeCasts_S1x1024x1024_S1024x1024 : S1x1024x1024.ShapeCasts S1024x1024
  slices_S2x1024x1024_S1x1024x1024_1_0_0 : S2x1024x1024.Slices ![1, 0, 0] S1x1024x1024
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1000x1024 : S1x1024.Broadcasts S1000x1024
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S2_S2_0 : ∀ a, (![0] : Fin 1 → Nat) a + S2.size a ≤ S2.size a
  h_S2 : 0 < S2.numel
  shapeCasts_S2_S1x2 : S2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  bcast_S_S32768 : S_.BroadcastsInDim S32768 (![] : Fin 0 → Fin S32768.rank)
  bcast_S32768_S32768x1_0 : S32768.BroadcastsInDim S32768x1 (![0] : Fin 1 → Fin S32768x1.rank)
  reducesTo_S32768x2_S32768_d1 : S32768x2.ReducesTo [1] S32768
  h_S_ : 0 < S_.numel
  bcast_S32768x1_S32768x2_0_1 : S32768x1.BroadcastsInDim S32768x2 (![0, 1] : Fin 2 → Fin S32768x2.rank)
  slices_S32768x2_S32768x1_0_1 : S32768x2.Slices ![0, 1] S32768x1
  shapeCasts_S32768x1_S32768 : S32768x1.ShapeCasts S32768
  gather_S50000x1024_S65536x1_S65536x1024_1_0_n_n_0_1_11024_wf : GatherDims.WF S50000x1024 S65536x1 S65536x1024 [1] [0] [] [0] [] 1 ![1, 1024]
  scatter_S50000x1024_S65536x1_S65536x1024_1_0_0_1_wf : ScatterDims.WF S50000x1024 S65536x1 S65536x1024 [1] [0] [0] 1
  scatter_S50000x1_S65536x1_S65536x1_1_0_0_1_wf : ScatterDims.WF S50000x1 S65536x1 S65536x1 [1] [0] [0] 1
  dot_S1000x1024_S1024x1024_S1000x1024_1_0_0_1_n_n_wf : DotDims.WF S1000x1024 S1024x1024 S1000x1024 [1] [0] [0] [1] [] []
  dot_S1000x1024_S1024x2_S1000x2_1_0_0_1_n_n_wf : DotDims.WF S1000x1024 S1024x2 S1000x2 [1] [0] [0] [1] [] []
  gather_S50000x2_S32768x1_S32768x2_1_0_n_n_0_1_12_wf : GatherDims.WF S50000x2 S32768x1 S32768x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S50000x1024.size a
  hwx0_0 : ∀ i : grid0.Coords, EltTy.bits .bf16 = 32 ∨ (Rect.block (s := S50000x1024) S1000x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S50000x1024.size a
  hwx0_1 : ∀ i : grid0.Coords, EltTy.bits .bf16 = 32 ∨ (Rect.block (s := S50000x1024) S1000x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S50000x1024.size a
  hwx0_2 : ∀ i : grid0.Coords, EltTy.bits .bf16 = 32 ∨ (Rect.block (s := S50000x1024) S1000x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x2.size a ≤ S1024x2.size a
  hwx0_7 : ∀ i : grid0.Coords, EltTy.bits .bf16 = 32 ∨ (Rect.block (s := S1024x2) S1024x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x2.size a ≤ S1024x2.size a
  hwx0_8 : ∀ i : grid0.Coords, EltTy.bits .bf16 = 32 ∨ (Rect.block (s := S1024x2) S1024x2.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2.size a ≤ S2.size a
  hwx0_9 : ∀ i : grid0.Coords, EltTy.bits .f32 = 32 ∨ (Rect.block (s := S2) S2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2.size a ≤ S2.size a
  hwx0_10 : ∀ i : grid0.Coords, EltTy.bits .f32 = 32 ∨ (Rect.block (s := S2) S2.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x2.size a ≤ S50000x2.size a
  hwx0_11 : ∀ i : grid0.Coords, EltTy.bits .f32 = 32 ∨ (Rect.block (s := S50000x2) S1000x2.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x2.size a ≤ S50000x2.size a
  hwx0_12 : ∀ i : grid0.Coords, EltTy.bits .f32 = 32 ∨ (Rect.block (s := S50000x2) S1000x2.size (cc0_transform_12 i) (hinb0_12 i)).WholeWords (EltTy.packing .f32)

variable [Facts₀]

def gather_S50000x1024_S65536x1_S65536x1024_1_0_n_n_0_1_11024 : GatherDims S50000x1024 S65536x1 S65536x1024 where
  offsetDims := [1]
  collapsedSliceDims := [0]
  operandBatchingDims := []
  startIndicesBatchingDims := []
  startIndexMap := [0]
  indexVectorDim := 1
  sliceSizes := ![1, 1024]
  wf := gather_S50000x1024_S65536x1_S65536x1024_1_0_n_n_0_1_11024_wf
def scatter_S50000x1024_S65536x1_S65536x1024_1_0_0_1 : ScatterDims S50000x1024 S65536x1 S65536x1024 where
  updateWindowDims := [1]
  insertedWindowDims := [0]
  scatterDimsToOperandDims := [0]
  indexVectorDim := 1
  wf := scatter_S50000x1024_S65536x1_S65536x1024_1_0_0_1_wf
def scatter_S50000x1_S65536x1_S65536x1_1_0_0_1 : ScatterDims S50000x1 S65536x1 S65536x1 where
  updateWindowDims := [1]
  insertedWindowDims := [0]
  scatterDimsToOperandDims := [0]
  indexVectorDim := 1
  wf := scatter_S50000x1_S65536x1_S65536x1_1_0_0_1_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1000x1024_S1024x2_S1000x2_1_0_0_1_n_n : DotDims S1000x1024 S1024x2 S1000x2 where
  lhsContracting := [1]
  rhsContracting := [0]
  lhsNonContracting := [0]
  rhsNonContracting := [1]
  lhsBatch := []
  rhsBatch := []
  wf := dot_S1000x1024_S1024x2_S1000x2_1_0_0_1_n_n_wf
def gather_S50000x2_S32768x1_S32768x2_1_0_n_n_0_1_12 : GatherDims S50000x2 S32768x1 S32768x2 where
  offsetDims := [1]
  collapsedSliceDims := [0]
  operandBatchingDims := []
  startIndicesBatchingDims := []
  startIndexMap := [0]
  indexVectorDim := 1
  sliceSizes := ![1, 2]
  wf := gather_S50000x2_S32768x1_S32768x2_1_0_n_n_0_1_12_wf

abbrev win0_0 : Pipeline.Window sig grid0 :=
  Pipeline.Window.ofSpec (Memref.whole main_v43) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1000x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v46) S1024x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S1024x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v52_0) S1000x2.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v52_1) S1000x2.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x1024 : Shape := ⟨2, ![50000, 1024]⟩
abbrev S2x65536 : Shape := ⟨2, ![2, 65536]⟩
abbrev S65536 : Shape := ⟨1, ![65536]⟩
abbrev S32768 : Shape := ⟨1, ![32768]⟩
abbrev S1024x1024 : Shape := ⟨2, ![1024, 1024]⟩
abbrev S2x1024x1024 : Shape := ⟨3, ![2, 1024, 1024]⟩
abbrev S1024 : Shape := ⟨1, ![1024]⟩
abbrev S1024x2 : Shape := ⟨2, ![1024, 2]⟩
abbrev S2 : Shape := ⟨1, ![2]⟩
abbrev S1x65536 : Shape := ⟨2, ![1, 65536]⟩
abbrev S_ : Shape := ⟨0, ![]⟩
abbrev S65536x1 : Shape := ⟨2, ![65536, 1]⟩
abbrev S65536x1024 : Shape := ⟨2, ![65536, 1024]⟩
abbrev S1x1024 : Shape := ⟨2, ![1, 1024]⟩
abbrev S50000x1 : Shape := ⟨2, ![50000, 1]⟩
abbrev S1x1024x1024 : Shape := ⟨3, ![1, 1024, 1024]⟩
abbrev S32768x1 : Shape := ⟨2, ![32768, 1]⟩
abbrev S32768x1024 : Shape := ⟨2, ![32768, 1024]⟩
abbrev S32768x2 : Shape := ⟨2, ![32768, 2]⟩
abbrev S1x2 : Shape := ⟨2, ![1, 2]⟩

abbrev nBuf : Space → Nat
  | .hbm => 139
  | .vmem => 0
  | .smem => 0
  | _ => 0

abbrev hbmTy0_0 (i : Nat) : BufTy := match i % 128 with
  | 0 => ⟨S50000x1024, .f32⟩
  | 1 => ⟨S2x65536, .i32⟩
  | 2 => ⟨S65536, .i32⟩
  | 3 => ⟨S32768, .i32⟩
  | 4 => ⟨S32768, .i32⟩
  | 5 => ⟨S1024x1024, .f32⟩
  | 6 => ⟨S2x1024x1024, .f32⟩
  | 7 => ⟨S1024, .f32⟩
  | 8 => ⟨S1024x2, .f32⟩
  | 9 => ⟨S2, .f32⟩
  | 10 => ⟨S1024x2, .f32⟩
  | 11 => ⟨S2, .f32⟩
  | 12 => ⟨S1x65536, .i32⟩
  | 13 => ⟨S65536, .i32⟩
  | 14 => ⟨S1x65536, .i32⟩
  | 15 => ⟨S65536, .i32⟩
  | 16 => ⟨S_, .i32⟩
  | 17 => ⟨S65536, .i32⟩
  | 18 => ⟨S65536, .i1⟩
  | 19 => ⟨S_, .i32⟩
  | 20 => ⟨S65536, .i32⟩
  | 21 => ⟨S65536, .i32⟩
  | 22 => ⟨S65536, .i32⟩
  | 23 => ⟨S65536x1, .i32⟩
  | 24 => ⟨S65536x1024, .f32⟩
  | 25 => ⟨S50000x1024, .f32⟩
  | 26 => ⟨S1x1024, .f32⟩
  | 27 => ⟨S50000x1024, .f32⟩
  | 28 => ⟨S50000x1024, .f32⟩
  | 29 => ⟨S_, .i32⟩
  | 30 => ⟨S65536, .i32⟩
  | 31 => ⟨S65536, .i1⟩
  | 32 => ⟨S65536, .f32⟩
  | 33 => ⟨S65536x1, .f32⟩
  | 34 => ⟨S65536x1024, .f32⟩
  | 35 => ⟨S65536x1024, .f32⟩
  | 36 => ⟨S_, .f32⟩
  | 37 => ⟨S50000x1024, .f32⟩
  | 38 => ⟨S65536x1, .i32⟩
  | 39 => ⟨S50000x1024, .f32⟩
  | 40 => ⟨S_, .f32⟩
  | 41 => ⟨S50000x1, .f32⟩
  | 42 => ⟨S65536x1, .i32⟩
  | 43 => ⟨S50000x1, .f32⟩
  | 44 => ⟨S_, .f32⟩
  | 45 => ⟨S_, .f32⟩
  | 46 => ⟨S50000x1, .f32⟩
  | 47 => ⟨S50000x1, .f32⟩
  | 48 => ⟨S50000x1024, .f32⟩
  | 49 => ⟨S50000x1024, .f32⟩
  | 50 => ⟨S1x1024x1024, .f32⟩
  | 51 => ⟨S1024x1024, .f32⟩
  | 52 => ⟨S50000x1024, .f32⟩
  | 53 => ⟨S50000x1024, .f32⟩
  | 54 => ⟨S_, .i32⟩
  | 55 => ⟨S65536, .i32⟩
  | 56 => ⟨S65536, .i1⟩
  | 57 => ⟨S65536, .f32⟩
  | 58 => ⟨S65536x1, .f32⟩
  | 59 => ⟨S65536x1024, .f32⟩
  | 60 => ⟨S65536x1024, .f32⟩
  | 61 => ⟨S_, .f32⟩
  | 62 => ⟨S50000x1024, .f32⟩
  | 63 => ⟨S65536x1, .i32⟩
  | 64 => ⟨S50000x1024, .f32⟩
  | 65 => ⟨S_, .f32⟩
  | 66 => ⟨S50000x1, .f32⟩
  | 67 => ⟨S65536x1, .i32⟩
  | 68 => ⟨S50000x1, .f32⟩
  | 69 => ⟨S_, .f32⟩
  | 70 => ⟨S_, .f32⟩
  | 71 => ⟨S50000x1, .f32⟩
  | 72 => ⟨S50000x1, .f32⟩
  | 73 => ⟨S50000x1024, .f32⟩
  | 74 => ⟨S50000x1024, .f32⟩
  | 75 => ⟨S1x1024x1024, .f32⟩
  | 76 => ⟨S1024x1024, .f32⟩
  | 77 => ⟨S50000x1024, .f32⟩
  | 78 => ⟨S50000x1024, .f32⟩
  | 79 => ⟨S_, .i32⟩
  | 80 => ⟨S32768, .i32⟩
  | 81 => ⟨S32768, .i1⟩
  | 82 => ⟨S_, .i32⟩
  | 83 => ⟨S32768, .i32⟩
  | 84 => ⟨S32768, .i32⟩
  | 85 => ⟨S32768, .i32⟩
  | 86 => ⟨S32768x1, .i32⟩
  | 87 => ⟨S32768x1024, .f32⟩
  | 88 => ⟨S32768x2, .f32⟩
  | 89 => ⟨S1x2, .f32⟩
  | 90 => ⟨S32768x2, .f32⟩
  | 91 => ⟨S32768x2, .f32⟩
  | 92 => ⟨S_, .i32⟩
  | 93 => ⟨S32768, .i32⟩
  | 94 => ⟨S32768, .i1⟩
  | 95 => ⟨S_, .i32⟩
  | 96 => ⟨S32768, .i32⟩
  | 97 => ⟨S32768, .i32⟩
  | 98 => ⟨S32768, .i32⟩
  | 99 => ⟨S32768x1, .i32⟩
  | 100 => ⟨S32768x1024, .f32⟩
  | 101 => ⟨S32768x2, .f32⟩
  | 102 => ⟨S1x2, .f32⟩
  | 103 => ⟨S32768x2, .f32⟩
  | 104 => ⟨S32768x2, .f32⟩
  | 105 => ⟨S_, .f32⟩
  | 106 => ⟨S32768, .f32⟩
  | 107 => ⟨S_, .f32⟩
  | 108 => ⟨S32768, .f32⟩
  | 109 => ⟨S32768, .f32⟩
  | 110 => ⟨S32768x1, .f32⟩
  | 111 => ⟨S32768x2, .f32⟩
  | 112 => ⟨S32768x2, .f32⟩
  | 113 => ⟨S32768x2, .f32⟩
  | 114 => ⟨S_, .f32⟩
  | 115 => ⟨S32768, .f32⟩
  | 116 => ⟨S32768x1, .f32⟩
  | 117 => ⟨S32768x1, .f32⟩
  | 118 => ⟨S32768x2, .f32⟩
  | 119 => ⟨S32768x2, .f32⟩
  | 120 => ⟨S32768x1, .f32⟩
  | 121 => ⟨S32768, .f32⟩
  | 122 => ⟨S_, .f32⟩
  | 123 => ⟨S32768, .f32⟩
  | 124 => ⟨S_, .f32⟩
  | 125 => ⟨S32768, .f32⟩
  | 126 => ⟨S32768, .f32⟩
  | 127 => ⟨S32768x1, .f32⟩
  | _ => ⟨S50000x1024, .f32⟩

abbrev hbmTy0_1 (i : Nat) : BufTy := match i % 128 with
  | 0 => ⟨S32768x2, .f32⟩
  | 1 => ⟨S32768x2, .f32⟩
  | 2 => ⟨S32768x2, .f32⟩
  | 3 => ⟨S_, .f32⟩
  | 4 => ⟨S32768, .f32⟩
  | 5 => ⟨S32768x1, .f32⟩
  | 6 => ⟨S32768x1, .f32⟩
  | 7 => ⟨S32768x2, .f32⟩
  | 8 => ⟨S32768x2, .f32⟩
  | 9 => ⟨S32768x1, .f32⟩
  | 10 => ⟨S32768, .f32⟩
  | _ => ⟨S50000x1024, .f32⟩

abbrev hbmTy (i : Nat) : BufTy := match i / 128 with
  | 0 => hbmTy0_0 i
  | 1 => hbmTy0_1 i
  | _ => ⟨S50000x1024, .f32⟩

abbrev bufTy : (tb : Table) → Fin (tcTables nBuf tb) → BufTy
  | .hbm, ⟨i, _⟩ => hbmTy i
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_call1_v0 : Ref sig .tc := ⟨.hbm, 70, rfl⟩
abbrev main_call1_v1 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_8 : Ref sig .tc := ⟨.hbm, 79, rfl⟩
abbrev main_v53 : Ref sig .tc := ⟨.hbm, 80, rfl⟩
abbrev main_v54 : Ref sig .tc := ⟨.hbm, 81, rfl⟩
abbrev main_c_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_10 : Ref sig .tc := ⟨.hbm, 92, rfl⟩
abbrev main_v64 : Ref sig .tc := ⟨.hbm, 93, rfl⟩
abbrev main_v65 : Ref sig .tc := ⟨.hbm, 94, rfl⟩
abbrev main_c_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call2_cst : Ref sig .tc := ⟨.hbm, 105, rfl⟩
abbrev main_call2_v0 : Ref sig .tc := ⟨.hbm, 106, rfl⟩
abbrev main_call2_cst_0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_cst_1 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S65536x1_S65536x1024_0_1 : S65536x1.BroadcastsInDim S65536x1024 (![0, 1] : Fin 2 → Fin S65536x1024.rank)
  bcast_S_S50000x1024 : S_.BroadcastsInDim S50000x1024 (![] : Fin 0 → Fin S50000x1024.rank)
  bcast_S_S50000x1 : S_.BroadcastsInDim S50000x1 (![] : Fin 0 → Fin S50000x1.rank)
  bcast_S50000x1_S50000x1024_0_1 : S50000x1.BroadcastsInDim S50000x1024 (![0, 1] : Fin 2 → Fin S50000x1024.rank)
  slices_S2x1024x1024_S1x1024x1024_0_0_0 : S2x1024x1024.Slices ![0, 0, 0] S1x1024x1024
  shapeCasts_S1x1024x1024_S1024x1024 : S1x1024x1024.ShapeCasts S1024x1024
  slices_S2x1024x1024_S1x1024x1024_1_0_0 : S2x1024x1024.Slices ![1, 0, 0] S1x1024x1024
  bcast_S_S32768 : S_.BroadcastsInDim S32768 (![] : Fin 0 → Fin S32768.rank)
  bcast_S32768_S32768x1_0 : S32768.BroadcastsInDim S32768x1 (![0] : Fin 1 → Fin S32768x1.rank)
  bcast_S2_S1x2_1 : S2.BroadcastsInDim S1x2 (![1] : Fin 1 → Fin S1x2.rank)
  bcast_S1x2_S32768x2_0_1 : S1x2.BroadcastsInDim S32768x2 (![0, 1] : Fin 2 → Fin S32768x2.rank)
  reducesTo_S32768x2_S32768_d1 : S32768x2.ReducesTo [1] S32768
  h_S_ : 0 < S_.numel
  bcast_S32768x1_S32768x2_0_1 : S32768x1.BroadcastsInDim S32768x2 (![0, 1] : Fin 2 → Fin S32768x2.rank)
  slices_S32768x2_S32768x1_0_1 : S32768x2.Slices ![0, 1] S32768x1
  shapeCasts_S32768x1_S32768 : S32768x1.ShapeCasts S32768
  gather_S50000x1024_S65536x1_S65536x1024_1_0_n_n_0_1_11024_wf : GatherDims.WF S50000x1024 S65536x1 S65536x1024 [1] [0] [] [0] [] 1 ![1, 1024]
  dot_S50000x1024_S1024x1024_S50000x1024_1_0_0_1_n_n_wf : DotDims.WF S50000x1024 S1024x1024 S50000x1024 [1] [0] [0] [1] [] []
  scatter_S50000x1024_S65536x1_S65536x1024_1_0_0_1_wf : ScatterDims.WF S50000x1024 S65536x1 S65536x1024 [1] [0] [0] 1
  scatter_S50000x1_S65536x1_S65536x1_1_0_0_1_wf : ScatterDims.WF S50000x1 S65536x1 S65536x1 [1] [0] [0] 1
  gather_S50000x1024_S32768x1_S32768x1024_1_0_n_n_0_1_11024_wf : GatherDims.WF S50000x1024 S32768x1 S32768x1024 [1] [0] [] [0] [] 1 ![1, 1024]
  dot_S32768x1024_S1024x2_S32768x2_1_0_0_1_n_n_wf : DotDims.WF S32768x1024 S1024x2 S32768x2 [1] [0] [0] [1] [] []

variable [Facts₀]

def gather_S50000x1024_S65536x1_S65536x1024_1_0_n_n_0_1_11024 : GatherDims S50000x1024 S65536x1 S65536x1024 where
  offsetDims := [1]
  collapsedSliceDims := [0]
  operandBatchingDims := []
  startIndicesBatchingDims := []
  startIndexMap := [0]
  indexVectorDim := 1
  sliceSizes := ![1, 1024]
  wf := gather_S50000x1024_S65536x1_S65536x1024_1_0_n_n_0_1_11024_wf
def dot_S50000x1024_S1024x1024_S50000x1024_1_0_0_1_n_n : DotDims S50000x1024 S1024x1024 S50000x1024 where
  lhsContracting := [1]
  rhsContracting := [0]
  lhsNonContracting := [0]
  rhsNonContracting := [1]
  lhsBatch := []
  rhsBatch := []
  wf := dot_S50000x1024_S1024x1024_S50000x1024_1_0_0_1_n_n_wf
def scatter_S50000x1024_S65536x1_S65536x1024_1_0_0_1 : ScatterDims S50000x1024 S65536x1 S65536x1024 where
  updateWindowDims := [1]
  insertedWindowDims := [0]
  scatterDimsToOperandDims := [0]
  indexVectorDim := 1
  wf := scatter_S50000x1024_S65536x1_S65536x1024_1_0_0_1_wf
def scatter_S50000x1_S65536x1_S65536x1_1_0_0_1 : ScatterDims S50000x1 S65536x1 S65536x1 where
  updateWindowDims := [1]
  insertedWindowDims := [0]
  scatterDimsToOperandDims := [0]
  indexVectorDim := 1
  wf := scatter_S50000x1_S65536x1_S65536x1_1_0_0_1_wf
def gather_S50000x1024_S32768x1_S32768x1024_1_0_n_n_0_1_11024 : GatherDims S50000x1024 S32768x1 S32768x1024 where
  offsetDims := [1]
  collapsedSliceDims := [0]
  operandBatchingDims := []
  startIndicesBatchingDims := []
  startIndexMap := [0]
  indexVectorDim := 1
  sliceSizes := ![1, 1024]
  wf := gather_S50000x1024_S32768x1_S32768x1024_1_0_n_n_0_1_11024_wf
def dot_S32768x1024_S1024x2_S32768x2_1_0_0_1_n_n : DotDims S32768x1024 S1024x2 S32768x2 where
  lhsContracting := [1]
  rhsContracting := [0]
  lhsNonContracting := [0]
  rhsNonContracting := [1]
  lhsBatch := []
  rhsBatch := []
  wf := dot_S32768x1024_S1024x2_S32768x2_1_0_0_1_n_n_wf

class Facts : Prop extends Facts₀ where

variable [Facts]
-- ==== Proof.LibDenseIdx.lean ====
/-
  Two readings at an index `(p, q)`, at the extended reals, generic in the extents.

  * A matrix product `[M, K] × [K, N]` (left operand contracted on its second axis, right operand on its first, no
    batch axis) accumulated into the zero splat is the sum over `k : Fin K` of `lhs (p, k) · rhs (k, q)`.
  * A vector `[n]` recast to a row `[1, n]` and broadcast down `m` rows is, at `(p, q)`, the vector's entry `q`.
-/
import Idealize.ShloMosaic.PureOps.Ideal.Laws
import Idealize.ShloMosaic.Lib.ValueIdx
import Idealize.ShloMosaic.Lib.Pipeline.Value

noncomputable section

open scoped BigOperators

namespace Cert.DenseIdx

open Idealize.ShloMosaic Idealize.ShloMosaic.ValueIdx

/-- The plain product's contraction shape has one axis … -/
theorem plain_contr_rank (M K N : Nat) : (DotDims.plain M K N).contr.rank = 1 := rfl
/-- … of extent `K`. -/
theorem plain_contr_size (M K N : Nat) : (DotDims.plain M K N).contr.size ⟨0, by rw [plain_contr_rank]; exact Nat.one_pos⟩ = K := rfl

/-- THE PLAIN PRODUCT INTO ZERO, read at `(p, q)`: the contraction index is its one coordinate `k`, the left operand is
    read at `(p, k)` and the right at `(k, q)`. -/
theorem plain_matmul_zero_apply {M K N : Nat} {φ₁ φ₂ : FTy} (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply,
    ← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx (ix2 p q)
      ((contrEquiv1 (DotDims.plain M K N) K (plain_contr_rank M K N) (plain_contr_size M K N)).symm k) = ix2 p k :=
    funext fun a => Fin.ext (by
      match a with
      | ⟨0, _⟩ => rfl
      | ⟨1, _⟩ => exact ((DotDims.plain M K N).lhsIdx_val_of_single (cl := 1) rfl _ _).trans hk)
  have er : (DotDims.plain M K N).rhsIdx (ix2 p q)
      ((contrEquiv1 (DotDims.plain M K N) K (plain_contr_rank M K N) (plain_contr_size M K N)).symm k) = ix2 k q :=
    funext fun a => Fin.ext (by
      match a with
      | ⟨0, _⟩ => exact ((DotDims.plain M K N).rhsIdx_val_of_single (cr := 0) rfl _ _).trans hk
      | ⟨1, _⟩ => rfl)
  rw [el, er]

/-- A VECTOR AS EVERY ROW: `[n]` recast to `[1, n]` and broadcast to `[m, n]`, read at `(p, q)`, is the vector at `q`. -/
theorem rowOfVector_apply {α : Type} {m n : Nat} (v : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (p : Fin m) (q : Fin n) :
    broadcastTo ⟨2, ![m, n]⟩ (shapeCast ⟨2, ![1, n]⟩ v h1) h2 (ix2 p q) = v (ix1 q) := by
  rw [broadcastTo_apply (shapeCast ⟨2, ![1, n]⟩ v h1) h2 (ix2 p q) (ix2 (0 : Fin 1) q) (fun a => by
    match a with
    | ⟨0, _⟩ => rfl
    | ⟨1, _⟩ =>
      show q.val = if n = 1 then 0 else q.val
      split_ifs with hn
      · have := q.isLt; omega
      · rfl)]
  rw [shapeCast_addUnit_apply ![n] v h1 (ix2 (0 : Fin 1) q)]
  exact congrArg v (funext fun a => by match a with | ⟨0, _⟩ => rfl)

end Cert.DenseIdx

end
-- ==== Proof.KernelBody.lean ====
/-
  The kernel body's arithmetic at an entry of a block, at the extended reals.

  The body takes a block of 1000 node rows: the nodes' own features `x` and their two aggregated neighbour feature
  blocks `a0`, `a1`, the three square transforms, the convolution bias and the two classifiers. It forms the hidden
  block — three matrix products into zero accumulators, summed left to right, plus the bias on every row (the
  narrowing to bf16 is the identity on extended reals) — and multiplies it by each classifier's weights, adding the
  classifier's bias on every row. Entry `(p, j)` of a classifier's output block is therefore the sum over `k` of the
  hidden entry `(p, k)` times the weight `(k, j)`, plus the bias entry `j`; and hidden entry `(p, k)` is the three
  row-by-column sums added in the body's order, plus the bias entry `k`.
-/
import proofs.«131765_j3607772528976_2_alg».proof.Proof.Gen.KernelIdeal.Skeleton
import proofs.«131765_j3607772528976_2_alg».proof.Proof.LibDenseIdx

noncomputable section

open scoped BigOperators

namespace Cert.KernelIdeal.Body

open Cert.KernelIdeal Cert.KernelIdeal.Gen Idealize.ShloMosaic Idealize.ShloMosaic.ValueIdx Cert.DenseIdx

/-- Both square products of the body are the plain `[1000, 1024] × [1024, 1024]` product … -/
theorem dotSquare_eq : dot_S1000x1024_S1024x1024_S1000x1024_1_0_0_1_n_n = DotDims.plain 1000 1024 1024 := rfl
/-- … and both classifier products the plain `[1000, 1024] × [1024, 2]` one. -/
theorem dotClass_eq : dot_S1000x1024_S1024x2_S1000x2_1_0_0_1_n_n = DotDims.plain 1000 1024 2 := rfl

/-- Entry `(p, k)` of the hidden block, from the blocks the body loads. -/
def hidBlk (x a0 a1 : S1000x1024.Idx → EReal) (wr w0 w1 : S1024x1024.Idx → EReal) (b : S1024.Idx → EReal)
    (p : Fin 1000) (k : Fin 1024) : EReal :=
  ((∑ l : Fin 1024, x (ix2 p l) * wr (ix2 l k) + ∑ l : Fin 1024, a0 (ix2 p l) * w0 (ix2 l k))
    + ∑ l : Fin 1024, a1 (ix2 p l) * w1 (ix2 l k)) + b (ix1 k)

/-- The body's hidden block, read at `(p, k)`. -/
theorem hidden_apply (x a0 a1 : Vec Ideal S1000x1024 .bf16) (wr w0 w1 : Vec Ideal S1024x1024 .bf16) (b : Vec Ideal S1024 .f32)
    (p : Fin 1000) (k : Fin 1024) :
    k0_pay2 (F := Ideal) x a0 a1 wr w0 w1 b (ix2 p k) = hidBlk x a0 a1 wr w0 w1 b p k := by
  unfold k0_pay2 hidBlk
  simp only [shapeCast_self, dotSquare_eq, matmul]
  rw [truncf_apply, addf_apply, addf_apply, addf_apply, plain_matmul_zero_apply, plain_matmul_zero_apply,
    plain_matmul_zero_apply, rowOfVector_apply]

/-- The first classifier's output block, read at `(p, j)`. -/
theorem first_apply (x a0 a1 : Vec Ideal S1000x1024 .bf16) (wr w0 w1 : Vec Ideal S1024x1024 .bf16) (b : Vec Ideal S1024 .f32)
    (wc : Vec Ideal S1024x2 .bf16) (bc : Vec Ideal S2 .f32) (p : Fin 1000) (j : Fin 2) :
    k0_pay3 (F := Ideal) x a0 a1 wr w0 w1 b wc bc (ix2 p j)
      = ∑ k : Fin 1024, hidBlk x a0 a1 wr w0 w1 b p k * wc (ix2 k j) + bc (ix1 j) := by
  unfold k0_pay3
  simp only [shapeCast_self, dotClass_eq, matmul]
  rw [addf_apply, plain_matmul_zero_apply, rowOfVector_apply]
  simp only [hidden_apply]

/-- The second classifier's output block, read at `(p, j)`. -/
theorem second_apply (x a0 a1 : Vec Ideal S1000x1024 .bf16) (wr w0 w1 : Vec Ideal S1024x1024 .bf16) (b : Vec Ideal S1024 .f32)
    (wc : Vec Ideal S1024x2 .bf16) (bc : Vec Ideal S2 .f32) (p : Fin 1000) (j : Fin 2) :
    k0_pay1 (F := Ideal) (k0_pay4 (F := Ideal) x a0 a1 wr w0 w1 b wc) (k0_pay5 (F := Ideal) bc) (ix2 p j)
      = ∑ k : Fin 1024, hidBlk x a0 a1 wr w0 w1 b p k * wc (ix2 k j) + bc (ix1 j) := by
  unfold k0_pay1 k0_pay4 k0_pay5
  simp only [shapeCast_self, dotClass_eq, matmul]
  rw [addf_apply, plain_matmul_zero_apply, rowOfVector_apply]
  simp only [hidden_apply]

end Cert.KernelIdeal.Body

end
-- ==== Proof.Spec.lean ====
/-
  The node classifier of a two-relation graph convolution, as formulas on the extended reals.

  A node's hidden row is the root transform of its feature row, plus one transform per relation of the
  relation's mean-aggregated neighbour row, plus the convolution bias. The kernel adds the bias last; the reference adds it
  right after the root term. Addition on the extended reals is commutative and associative (also at the infinities),
  so the two orders give the same hidden row, and no finiteness of the inputs is used.
  A classifier's logit of a node is the product of the hidden row with a column of the classifier's weight matrix,
  plus the classifier's bias; the logits asked for are those of the nodes a list of row numbers names.
-/
import Idealize.ShloMosaic.PureOps.Ideal
import Idealize.ShloMosaic.Lib.ValueIdx

noncomputable section

open scoped BigOperators

namespace Cert.Rgcn

open Idealize.ShloMosaic Idealize.ShloMosaic.ValueIdx

/-- Node features and aggregated neighbour features: 50000 nodes, 1024 features. -/
abbrev SNxD : Shape := ⟨2, ![50000, 1024]⟩
/-- A square transform of the feature space. -/
abbrev SDxD : Shape := ⟨2, ![1024, 1024]⟩
/-- A feature vector (the convolution bias). -/
abbrev SD : Shape := ⟨1, ![1024]⟩
/-- A classifier's weights: two classes. -/
abbrev SDxC : Shape := ⟨2, ![1024, 2]⟩
/-- A classifier's bias. -/
abbrev SC : Shape := ⟨1, ![2]⟩
/-- The logits of every node. -/
abbrev SNxC : Shape := ⟨2, ![50000, 2]⟩
/-- The logits of the listed nodes. -/
abbrev SGxC : Shape := ⟨2, ![32768, 2]⟩

/-- One transform's contribution to entry `(n, k)` of the hidden array: row `n` of `A` times column `k` of `W`. -/
def term (A : SNxD.Idx → EReal) (W : SDxD.Idx → EReal) (n : Fin 50000) (k : Fin 1024) : EReal :=
  ∑ l : Fin 1024, A (ix2 n l) * W (ix2 l k)

/-- The hidden row in the kernel's order: root, relation 0, relation 1, bias. -/
def hidLate (X A0 A1 : SNxD.Idx → EReal) (Wr W0 W1 : SDxD.Idx → EReal) (b : SD.Idx → EReal)
    (n : Fin 50000) (k : Fin 1024) : EReal :=
  ((term X Wr n k + term A0 W0 n k) + term A1 W1 n k) + b (ix1 k)

/-- The hidden row in the reference's order: root, bias, relation 0, relation 1. -/
def hidEarly (X A0 A1 : SNxD.Idx → EReal) (Wr W0 W1 : SDxD.Idx → EReal) (b : SD.Idx → EReal)
    (n : Fin 50000) (k : Fin 1024) : EReal :=
  ((term X Wr n k + b (ix1 k)) + term A0 W0 n k) + term A1 W1 n k

/-- Moving the bias across the two relation terms changes nothing: `(r + a + a') + b = (r + b + a) + a'` in any
    commutative monoid, the extended reals among them. -/
theorem hidLate_eq_hidEarly (X A0 A1 : SNxD.Idx → EReal) (Wr W0 W1 : SDxD.Idx → EReal) (b : SD.Idx → EReal) :
    hidLate X A0 A1 Wr W0 W1 b = hidEarly X A0 A1 Wr W0 W1 b := by
  funext n k
  unfold hidLate hidEarly
  rw [add_right_comm (term X Wr n k + term A0 W0 n k) (term A1 W1 n k) (b (ix1 k)),
    add_right_comm (term X Wr n k) (term A0 W0 n k) (b (ix1 k))]

/-- A classifier's logit `j` of node `n`: the hidden row times column `j` of the weights, plus the bias. -/
def logit (H : Fin 50000 → Fin 1024 → EReal) (Wc : SDxC.Idx → EReal) (bc : SC.Idx → EReal)
    (n : Fin 50000) (j : Fin 2) : EReal :=
  ∑ k : Fin 1024, H n k * Wc (ix2 k j) + bc (ix1 j)

/-- The logits of every node, as an array. -/
def allLogits (H : Fin 50000 → Fin 1024 → EReal) (Wc : SDxC.Idx → EReal) (bc : SC.Idx → EReal) :
    SNxC.Idx → EReal :=
  fun i => logit H Wc bc (i 0) (i 1)

/-- The logits of the nodes a list of row numbers names, as an array. -/
def listedLogits (H : Fin 50000 → Fin 1024 → EReal) (Wc : SDxC.Idx → EReal) (bc : SC.Idx → EReal)
    (row : Fin 32768 → Fin 50000) : SGxC.Idx → EReal :=
  fun i => logit H Wc bc (row (i 0)) (i 1)

end Cert.Rgcn

end
-- ==== Proof.KernelPoint.lean ====
/-
  One entry of a classifier's output block is one entry of the all-nodes logits array.

  At a grid point the body sees a block of 1000 node rows of the three feature arrays and the whole of every weight
  array. If row `j₀` of each feature block is row `i₀` of the corresponding whole array, and each weight block is its
  whole array, then entry `(j₀, j₁)` of a classifier's output block is logit `j₁` of node `i₀`: the hidden row in the
  body's order of addition times the classifier's column, plus the classifier's bias.
-/
import proofs.«131765_j3607772528976_2_alg».proof.Proof.KernelBody
import proofs.«131765_j3607772528976_2_alg».proof.Proof.Spec

noncomputable section

open scoped BigOperators

namespace Cert.KernelIdeal.Body

open Cert.KernelIdeal Cert.KernelIdeal.Gen Idealize.ShloMosaic Idealize.ShloMosaic.ValueIdx Cert.Rgcn

/-- The hidden block's row `j₀` is the hidden array's row `i₀`. -/
theorem hidBlk_eq (x a0 a1 : S1000x1024.Idx → EReal) (wr w0 w1 : S1024x1024.Idx → EReal) (b : S1024.Idx → EReal)
    (X A0 A1 : SNxD.Idx → EReal) (Wr W0 W1 : SDxD.Idx → EReal) (B : SD.Idx → EReal)
    (j0 : Fin 1000) (i0 : Fin 50000)
    (hx : ∀ l : Fin 1024, x (ix2 j0 l) = X (ix2 i0 l))
    (h0 : ∀ l : Fin 1024, a0 (ix2 j0 l) = A0 (ix2 i0 l))
    (h1 : ∀ l : Fin 1024, a1 (ix2 j0 l) = A1 (ix2 i0 l))
    (hwr : ∀ y, wr y = Wr y) (hw0 : ∀ y, w0 y = W0 y) (hw1 : ∀ y, w1 y = W1 y) (hb : ∀ y, b y = B y) (k : Fin 1024) :
    hidBlk x a0 a1 wr w0 w1 b j0 k = hidLate X A0 A1 Wr W0 W1 B i0 k := by
  unfold hidBlk hidLate term
  simp only [hx, h0, h1, hwr, hw0, hw1, hb]

/-- The first classifier's block entry is the node's logit. -/
theorem first_point (x a0 a1 : Vec Ideal S1000x1024 .bf16) (wr w0 w1 : Vec Ideal S1024x1024 .bf16) (b : Vec Ideal S1024 .f32)
    (wc : Vec Ideal S1024x2 .bf16) (bc : Vec Ideal S2 .f32)
    (X A0 A1 : SNxD.Idx → EReal) (Wr W0 W1 : SDxD.Idx → EReal) (B : SD.Idx → EReal)
    (Wc : SDxC.Idx → EReal) (Bc : SC.Idx → EReal)
    (j : S1000x2.Idx) (i : SNxC.Idx)
    (hx : ∀ l : Fin 1024, x (ix2 (j 0) l) = X (ix2 (i 0) l))
    (h0 : ∀ l : Fin 1024, a0 (ix2 (j 0) l) = A0 (ix2 (i 0) l))
    (h1 : ∀ l : Fin 1024, a1 (ix2 (j 0) l) = A1 (ix2 (i 0) l))
    (hwr : ∀ y, wr y = Wr y) (hw0 : ∀ y, w0 y = W0 y) (hw1 : ∀ y, w1 y = W1 y) (hb : ∀ y, b y = B y)
    (hwc : ∀ y, wc y = Wc y) (hbc : ∀ y, bc y = Bc y) (hj : j 1 = i 1) :
    k0_pay3 (F := Ideal) x a0 a1 wr w0 w1 b wc bc j = allLogits (hidLate X A0 A1 Wr W0 W1 B) Wc Bc i := by
  obtain ⟨p, q, rfl⟩ : ∃ (p : Fin 1000) (q : Fin 2), j = ix2 p q := ⟨j 0, j 1, eq_ix2 j⟩
  have hx' : ∀ l : Fin 1024, x (ix2 p l) = X (ix2 (i 0) l) := hx
  have h0' : ∀ l : Fin 1024, a0 (ix2 p l) = A0 (ix2 (i 0) l) := h0
  have h1' : ∀ l : Fin 1024, a1 (ix2 p l) = A1 (ix2 (i 0) l) := h1
  have hj' : q = i 1 := hj
  rw [first_apply]
  unfold allLogits logit
  simp only [hidBlk_eq x a0 a1 wr w0 w1 b X A0 A1 Wr W0 W1 B p (i 0) hx' h0' h1' hwr hw0 hw1 hb, hwc, hbc, hj']

/-- The second classifier's block entry is the node's logit. -/
theorem second_point (x a0 a1 : Vec Ideal S1000x1024 .bf16) (wr w0 w1 : Vec Ideal S1024x1024 .bf16) (b : Vec Ideal S1024 .f32)
    (wc : Vec Ideal S1024x2 .bf16) (bc : Vec Ideal S2 .f32)
    (X A0 A1 : SNxD.Idx → EReal) (Wr W0 W1 : SDxD.Idx → EReal) (B : SD.Idx → EReal)
    (Wc : SDxC.Idx → EReal) (Bc : SC.Idx → EReal)
    (j : S1000x2.Idx) (i : SNxC.Idx)
    (hx : ∀ l : Fin 1024, x (ix2 (j 0) l) = X (ix2 (i 0) l))
    (h0 : ∀ l : Fin 1024, a0 (ix2 (j 0) l) = A0 (ix2 (i 0) l))
    (h1 : ∀ l : Fin 1024, a1 (ix2 (j 0) l) = A1 (ix2 (i 0) l))
    (hwr : ∀ y, wr y = Wr y) (hw0 : ∀ y, w0 y = W0 y) (hw1 : ∀ y, w1 y = W1 y) (hb : ∀ y, b y = B y)
    (hwc : ∀ y, wc y = Wc y) (hbc : ∀ y, bc y = Bc y) (hj : j 1 = i 1) :
    k0_pay1 (F := Ideal) (k0_pay4 (F := Ideal) x a0 a1 wr w0 w1 b wc) (k0_pay5 (F := Ideal) bc) j
      = allLogits (hidLate X A0 A1 Wr W0 W1 B) Wc Bc i := by
  obtain ⟨p, q, rfl⟩ : ∃ (p : Fin 1000) (q : Fin 2), j = ix2 p q := ⟨j 0, j 1, eq_ix2 j⟩
  have hx' : ∀ l : Fin 1024, x (ix2 p l) = X (ix2 (i 0) l) := hx
  have h0' : ∀ l : Fin 1024, a0 (ix2 p l) = A0 (ix2 (i 0) l) := h0
  have h1' : ∀ l : Fin 1024, a1 (ix2 p l) = A1 (ix2 (i 0) l) := h1
  have hj' : q = i 1 := hj
  rw [second_apply]
  unfold allLogits logit
  simp only [hidBlk_eq x a0 a1 wr w0 w1 b X A0 A1 Wr W0 W1 B p (i 0) hx' h0' h1' hwr hw0 hw1 hb, hwc, hbc, hj']

end Cert.KernelIdeal.Body

end
-- ==== Proof.KernelBlocks.lean ====
/-
  The two classifier arrays after the region.

  The region runs the body at 50 grid points. Point `t` fetches rows `1000·t … 1000·t + 999` of the three node feature
  arrays (the features and the two aggregated neighbour arrays) and the whole of every weight and bias array, and writes
  back rows `1000·t … 1000·t + 999` of each classifier's `[50000, 2]` array. What it writes is, entry by entry, the logits
  of those nodes; the 50 blocks tile the arrays (row `r` lies in block `r / 1000`), so each array ends holding the logits
  of every node — as functions of the arrays the region finds.
-/
import proofs.«131765_j3607772528976_2_alg».proof.Proof.Gen.KernelIdeal.Frame
import proofs.«131765_j3607772528976_2_alg».proof.Proof.KernelPoint
import Idealize.ShloMosaic.Lib.Pipeline.Value

set_option maxRecDepth 16384

noncomputable section

namespace Cert.KernelIdeal.Blocks

open Cert.KernelIdeal Cert.KernelIdeal.Gen Cert.KernelIdeal.Body Cert.Rgcn
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 50 grid points: the three node-row windows and the two output windows are
    at block `(t, 0)`, every weight and bias window at its array's one block. -/
theorem idx_facts : ∀ t : Fin cfg0.N,
    win0_0.index t (0 : Fin 2) = win0_11.index t (0 : Fin 2)
    ∧ win0_0.index t (1 : Fin 2) = 0
    ∧ win0_1.index t (0 : Fin 2) = win0_11.index t (0 : Fin 2)
    ∧ win0_1.index t (1 : Fin 2) = 0
    ∧ win0_2.index t (0 : Fin 2) = win0_11.index t (0 : Fin 2)
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 1) = 0
    ∧ win0_10.index t (0 : Fin 1) = 0
    ∧ win0_12.index t (0 : Fin 2) = win0_11.index t (0 : Fin 2)
    ∧ win0_11.index t (1 : Fin 2) = 0
    ∧ win0_12.index t (1 : Fin 2) = 0
    ∧ win0_11.index t (0 : Fin 2) ≤ 49 :=
  (by decide +kernel : ∀ t : Fin grid0.N, _)

/-- Every block row of the output arrays is some point's. -/
theorem idx_onto : ∀ q : Fin 50, ∃ t : Fin cfg0.N, win0_11.index t (0 : Fin 2) = q.val :=
  (by decide +kernel : ∀ q : Fin 50, ∃ t : Fin grid0.N, win0_11.index t (0 : Fin 2) = q.val)

set_option maxHeartbeats 8000000 in
/-- WHAT POINT `t` WRITES BACK to the first classifier's array is block `t` of the all-nodes logits. -/
theorem flushed11_eq (c : Dev nD) (t : Fin cfg0.N) :
    (dats (F := Ideal) m 0 c).flushed 11 t = ((cfg0.win 11).blk t).view.read (Elt Ideal) (allLogits (hidLate (V m c main_v43) (V m c main_v26) (V m c main_v42) (V m c main_v44) (V m c main_v49) (V m c main_v51) (V m c main_arg7)) (V m c main_v46) (V m c main_arg9)) := by
  show (cfg0.win 11).cut (grid0.coords t) ((dats (F := Ideal) m 0 c).after 11 t) = _
  rw [after0_11]
  unfold out0_11
  rw [View.canon_unit_zero hz2]
  simp only [View.ld_unit_zero (S := S1000x1024) hz2, View.ld_unit_zero (S := S1024x1024) hz2, View.ld_unit_zero (S := S1024) hz1,
    View.ld_unit_zero (S := S1024x2) hz2, View.ld_unit_zero (S := S2) hz1]
  obtain ⟨x0, x1, a0, a1, b0, b1, r0, r1, s0, s1, u0, u1, v0, p0, p1, g0, g1, q0, z0, o0, o1, o2, ob⟩ := idx_facts t
  funext j
  show k0_pay3 (F := Ideal) (iblk m c 0 t) (iblk m c 1 t) (iblk m c 2 t) (iblk m c 3 t) (iblk m c 4 t) (iblk m c 5 t) (iblk m c 6 t) (iblk m c 7 t) (iblk m c 9 t) j
    = (allLogits (hidLate (V m c main_v43) (V m c main_v26) (V m c main_v42) (V m c main_v44) (V m c main_v49) (V m c main_v51) (V m c main_arg7)) (V m c main_v46) (V m c main_arg9)) (((cfg0.win 11).blk t).view.emb j)
  refine first_point (iblk m c 0 t) (iblk m c 1 t) (iblk m c 2 t) (iblk m c 3 t) (iblk m c 4 t) (iblk m c 5 t) (iblk m c 6 t) (iblk m c 7 t) (iblk m c 9 t)
    (V m c main_v43) (V m c main_v26) (V m c main_v42) (V m c main_v44) (V m c main_v49) (V m c main_v51) (V m c main_arg7) (V m c main_v46) (V m c main_arg9)
    j (((cfg0.win 11).blk t).view.emb j) ?_ ?_ ?_ ?_ ?_ ?_ ?_ ?_ ?_ ?_
  · intro l
    show V m c main_v43 (((cfg0.win 0).blk t).view.emb (ix2 (j 0) l)) = V m c main_v43 (ix2 ((((cfg0.win 11).blk t).view.emb j) 0) l)
    refine congrArg (V m c main_v43) (funext fun a => Fin.ext ?_)
    match a with
    | ⟨0, _⟩ => show win0_0.index t (0 : Fin 2) * 1000 + 1 * (j 0).val = win0_11.index t (0 : Fin 2) * 1000 + 1 * (j 0).val; omega
    | ⟨1, _⟩ => show win0_0.index t (1 : Fin 2) * 1024 + 1 * l.val = l.val; omega
  · intro l
    show V m c main_v26 (((cfg0.win 1).blk t).view.emb (ix2 (j 0) l)) = V m c main_v26 (ix2 ((((cfg0.win 11).blk t).view.emb j) 0) l)
    refine congrArg (V m c main_v26) (funext fun a => Fin.ext ?_)
    match a with
    | ⟨0, _⟩ => show win0_1.index t (0 : Fin 2) * 1000 + 1 * (j 0).val = win0_11.index t (0 : Fin 2) * 1000 + 1 * (j 0).val; omega
    | ⟨1, _⟩ => show win0_1.index t (1 : Fin 2) * 1024 + 1 * l.val = l.val; omega
  · intro l
    show V m c main_v42 (((cfg0.win 2).blk t).view.emb (ix2 (j 0) l)) = V m c main_v42 (ix2 ((((cfg0.win 11).blk t).view.emb j) 0) l)
    refine congrArg (V m c main_v42) (funext fun a => Fin.ext ?_)
    match a with
    | ⟨0, _⟩ => show win0_2.index t (0 : Fin 2) * 1000 + 1 * (j 0).val = win0_11.index t (0 : Fin 2) * 1000 + 1 * (j 0).val; omega
    | ⟨1, _⟩ => show win0_2.index t (1 : Fin 2) * 1024 + 1 * l.val = l.val; omega
  · intro y
    show V m c main_v44 (((cfg0.win 3).blk t).view.emb y) = V m c main_v44 y
    refine congrArg (V m c main_v44) (funext fun a => Fin.ext ?_)
    match a with
    | ⟨0, _⟩ => show win0_3.index t (0 : Fin 2) * 1024 + 1 * (y 0).val = (y 0).val; omega
    | ⟨1, _⟩ => show win0_3.index t (1 : Fin 2) * 1024 + 1 * (y 1).val = (y 1).val; omega
  · intro y
    show V m c main_v49 (((cfg0.win 4).blk t).view.emb y) = V m c main_v49 y
    refine congrArg (V m c main_v49) (funext fun a => Fin.ext ?_)
    match a with
    | ⟨0, _⟩ => show win0_4.index t (0 : Fin 2) * 1024 + 1 * (y 0).val = (y 0).val; omega
    | ⟨1, _⟩ => show win0_4.index t (1 : Fin 2) * 1024 + 1 * (y 1).val = (y 1).val; omega
  · intro y
    show V m c main_v51 (((cfg0.win 5).blk t).view.emb y) = V m c main_v51 y
    refine congrArg (V m c main_v51) (funext fun a => Fin.ext ?_)
    match a with
    | ⟨0, _⟩ => show win0_5.index t (0 : Fin 2) * 1024 + 1 * (y 0).val = (y 0).val; omega
    | ⟨1, _⟩ => show win0_5.index t (1 : Fin 2) * 1024 + 1 * (y 1).val = (y 1).val; omega
  · intro y
    show V m c main_arg7 (((cfg0.win 6).blk t).view.emb y) = V m c main_arg7 y
    refine congrArg (V m c main_arg7) (funext fun a => Fin.ext ?_)
    match a with
    | ⟨0, _⟩ => show win0_6.index t (0 : Fin 1) * 1024 + 1 * (y 0).val = (y 0).val; omega
  · intro y
    show V m c main_v46 (((cfg0.win 7).blk t).view.emb y) = V m c main_v46 y
    refine congrArg (V m c main_v46) (funext fun a => Fin.ext ?_)
    match a with
    | ⟨0, _⟩ => show win0_7.index t (0 : Fin 2) * 1024 + 1 * (y 0).val = (y 0).val; omega
    | ⟨1, _⟩ => show win0_7.index t (1 : Fin 2) * 2 + 1 * (y 1).val = (y 1).val; omega
  · intro y
    show V m c main_arg9 (((cfg0.win 9).blk t).view.emb y) = V m c main_arg9 y
    refine congrArg (V m c main_arg9) (funext fun a => Fin.ext ?_)
    match a with
    | ⟨0, _⟩ => show win0_9.index t (0 : Fin 1) * 2 + 1 * (y 0).val = (y 0).val; omega
  · apply Fin.ext
    show (j 1).val = win0_11.index t (1 : Fin 2) * 2 + 1 * (j 1).val
    omega

/-- An index of the first classifier's array is in point `t`'s block iff each coordinate is in the block's range. -/
theorem mem_blk11 (t : Fin cfg0.N) (i : S50000x2.Idx) :
    i ∈ ((cfg0.win 11).blk t).view.set ↔ ∀ a : Fin 2, win0_11.index t a * S1000x2.size a ≤ (i a).val ∧ (i a).val < win0_11.index t a * S1000x2.size a + S1000x2.size a := by
  show i ∈ ((View.whole main_v52_0).slice (win0_11.rect t)).set ↔ _
  rw [View.set_slice_whole, Rect.mem_set_unit]
  exact Iff.rfl

/-- Every node row is in some point's block: row `r` in the block of point `r / 1000`. -/
theorem cover11 (i : S50000x2.Idx) : ∃ t : Fin cfg0.N, (cfg0.win 11).flush t = true ∧ i ∈ ((cfg0.win 11).blk t).view.set := by
  have hi0 : (i 0).val < 50000 := (i 0).isLt
  have hi1 : (i 1).val < 2 := (i 1).isLt
  obtain ⟨t, ht⟩ := idx_onto ⟨(i 0).val / 1000, by omega⟩
  have ht' : win0_11.index t (0 : Fin 2) = (i 0).val / 1000 := ht
  obtain ⟨x0, x1, a0, a1, b0, b1, r0, r1, s0, s1, u0, u1, v0, p0, p1, g0, g1, q0, z0, o0, o1, o2, ob⟩ := idx_facts t
  refine ⟨t, flush0_11 t, ?_⟩
  rw [mem_blk11]
  intro a
  match a with
  | ⟨0, _⟩ => show win0_11.index t (0 : Fin 2) * 1000 ≤ (i 0).val ∧ (i 0).val < win0_11.index t (0 : Fin 2) * 1000 + 1000; omega
  | ⟨1, _⟩ => show win0_11.index t (1 : Fin 2) * 2 ≤ (i 1).val ∧ (i 1).val < win0_11.index t (1 : Fin 2) * 2 + 2; omega

/-- THE FIRST CLASSIFIER'S ARRAY after the region: the logits of every node. -/
theorem final11 (c : Dev nD) : (dats (F := Ideal) m 0 c).arrAt 11 cfg0.N = (allLogits (hidLate (V m c main_v43) (V m c main_v26) (V m c main_v42) (V m c main_v44) (V m c main_v49) (V m c main_v51) (V m c main_arg7)) (V m c main_v46) (V m c main_arg9)) :=
  (dats (F := Ideal) m 0 c).arrAt_eq_of_cover 11 _ (fun t _ => flushed11_eq m c t) cover11

set_option maxHeartbeats 8000000 in
/-- WHAT POINT `t` WRITES BACK to the second classifier's array is block `t` of the all-nodes logits. -/
theorem flushed12_eq (c : Dev nD) (t : Fin cfg0.N) :
    (dats (F := Ideal) m 0 c).flushed 12 t = ((cfg0.win 12).blk t).view.read (Elt Ideal) (allLogits (hidLate (V m c main_v43) (V m c main_v26) (V m c main_v42) (V m c main_v44) (V m c main_v49) (V m c main_v51) (V m c main_arg7)) (V m c main_v47) (V m c main_arg11)) := by
  show (cfg0.win 12).cut (grid0.coords t) ((dats (F := Ideal) m 0 c).after 12 t) = _
  rw [after0_12]
  unfold out0_12
  rw [View.canon_unit_zero hz2]
  simp only [View.ld_unit_zero (S := S1000x1024) hz2, View.ld_unit_zero (S := S1024x1024) hz2, View.ld_unit_zero (S := S1024) hz1,
    View.ld_unit_zero (S := S1024x2) hz2, View.ld_unit_zero (S := S2) hz1]
  obtain ⟨x0, x1, a0, a1, b0, b1, r0, r1, s0, s1, u0, u1, v0, p0, p1, g0, g1, q0, z0, o0, o1, o2, ob⟩ := idx_facts t
  funext j
  show k0_pay1 (F := Ideal) (k0_pay4 (F := Ideal) (iblk m c 0 t) (iblk m c 1 t) (iblk m c 2 t) (iblk m c 3 t) (iblk m c 4 t) (iblk m c 5 t) (iblk m c 6 t) (iblk m c 8 t)) (k0_pay5 (F := Ideal) (iblk m c 10 t)) j
    = (allLogits (hidLate (V m c main_v43) (V m c main_v26) (V m c main_v42) (V m c main_v44) (V m c main_v49) (V m c main_v51) (V m c main_arg7)) (V m c main_v47) (V m c main_arg11)) (((cfg0.win 12).blk t).view.emb j)
  refine second_point (iblk m c 0 t) (iblk m c 1 t) (iblk m c 2 t) (iblk m c 3 t) (iblk m c 4 t) (iblk m c 5 t) (iblk m c 6 t) (iblk m c 8 t) (iblk m c 10 t)
    (V m c main_v43) (V m c main_v26) (V m c main_v42) (V m c main_v44) (V m c main_v49) (V m c main_v51) (V m c main_arg7) (V m c main_v47) (V m c main_arg11)
    j (((cfg0.win 12).blk t).view.emb j) ?_ ?_ ?_ ?_ ?_ ?_ ?_ ?_ ?_ ?_
  · intro l
    show V m c main_v43 (((cfg0.win 0).blk t).view.emb (ix2 (j 0) l)) = V m c main_v43 (ix2 ((((cfg0.win 12).blk t).view.emb j) 0) l)
    refine congrArg (V m c main_v43) (funext fun a => Fin.ext ?_)
    match a with
    | ⟨0, _⟩ => show win0_0.index t (0 : Fin 2) * 1000 + 1 * (j 0).val = win0_12.index t (0 : Fin 2) * 1000 + 1 * (j 0).val; omega
    | ⟨1, _⟩ => show win0_0.index t (1 : Fin 2) * 1024 + 1 * l.val = l.val; omega
  · intro l
    show V m c main_v26 (((cfg0.win 1).blk t).view.emb (ix2 (j 0) l)) = V m c main_v26 (ix2 ((((cfg0.win 12).blk t).view.emb j) 0) l)
    refine congrArg (V m c main_v26) (funext fun a => Fin.ext ?_)
    match a with
    | ⟨0, _⟩ => show win0_1.index t (0 : Fin 2) * 1000 + 1 * (j 0).val = win0_12.index t (0 : Fin 2) * 1000 + 1 * (j 0).val; omega
    | ⟨1, _⟩ => show win0_1.index t (1 : Fin 2) * 1024 + 1 * l.val = l.val; omega
  · intro l
    show V m c main_v42 (((cfg0.win 2).blk t).view.emb (ix2 (j 0) l)) = V m c main_v42 (ix2 ((((cfg0.win 12).blk t).view.emb j) 0) l)
    refine congrArg (V m c main_v42) (funext fun a => Fin.ext ?_)
    match a with
    | ⟨0, _⟩ => show win0_2.index t (0 : Fin 2) * 1000 + 1 * (j 0).val = win0_12.index t (0 : Fin 2) * 1000 + 1 * (j 0).val; omega
    | ⟨1, _⟩ => show win0_2.index t (1 : Fin 2) * 1024 + 1 * l.val = l.val; omega
  · intro y
    show V m c main_v44 (((cfg0.win 3).blk t).view.emb y) = V m c main_v44 y
    refine congrArg (V m c main_v44) (funext fun a => Fin.ext ?_)
    match a with
    | ⟨0, _⟩ => show win0_3.index t (0 : Fin 2) * 1024 + 1 * (y 0).val = (y 0).val; omega
    | ⟨1, _⟩ => show win0_3.index t (1 : Fin 2) * 1024 + 1 * (y 1).val = (y 1).val; omega
  · intro y
    show V m c main_v49 (((cfg0.win 4).blk t).view.emb y) = V m c main_v49 y
    refine congrArg (V m c main_v49) (funext fun a => Fin.ext ?_)
    match a with
    | ⟨0, _⟩ => show win0_4.index t (0 : Fin 2) * 1024 + 1 * (y 0).val = (y 0).val; omega
    | ⟨1, _⟩ => show win0_4.index t (1 : Fin 2) * 1024 + 1 * (y 1).val = (y 1).val; omega
  · intro y
    show V m c main_v51 (((cfg0.win 5).blk t).view.emb y) = V m c main_v51 y
    refine congrArg (V m c main_v51) (funext fun a => Fin.ext ?_)
    match a with
    | ⟨0, _⟩ => show win0_5.index t (0 : Fin 2) * 1024 + 1 * (y 0).val = (y 0).val; omega
    | ⟨1, _⟩ => show win0_5.index t (1 : Fin 2) * 1024 + 1 * (y 1).val = (y 1).val; omega
  · intro y
    show V m c main_arg7 (((cfg0.win 6).blk t).view.emb y) = V m c main_arg7 y
    refine congrArg (V m c main_arg7) (funext fun a => Fin.ext ?_)
    match a with
    | ⟨0, _⟩ => show win0_6.index t (0 : Fin 1) * 1024 + 1 * (y 0).val = (y 0).val; omega
  · intro y
    show V m c main_v47 (((cfg0.win 8).blk t).view.emb y) = V m c main_v47 y
    refine congrArg (V m c main_v47) (funext fun a => Fin.ext ?_)
    match a with
    | ⟨0, _⟩ => show win0_8.index t (0 : Fin 2) * 1024 + 1 * (y 0).val = (y 0).val; omega
    | ⟨1, _⟩ => show win0_8.index t (1 : Fin 2) * 2 + 1 * (y 1).val = (y 1).val; omega
  · intro y
    show V m c main_arg11 (((cfg0.win 10).blk t).view.emb y) = V m c main_arg11 y
    refine congrArg (V m c main_arg11) (funext fun a => Fin.ext ?_)
    match a with
    | ⟨0, _⟩ => show win0_10.index t (0 : Fin 1) * 2 + 1 * (y 0).val = (y 0).val; omega
  · apply Fin.ext
    show (j 1).val = win0_12.index t (1 : Fin 2) * 2 + 1 * (j 1).val
    omega

/-- An index of the second classifier's array is in point `t`'s block iff each coordinate is in the block's range. -/
theorem mem_blk12 (t : Fin cfg0.N) (i : S50000x2.Idx) :
    i ∈ ((cfg0.win 12).blk t).view.set ↔ ∀ a : Fin 2, win0_12.index t a * S1000x2.size a ≤ (i a).val ∧ (i a).val < win0_12.index t a * S1000x2.size a + S1000x2.size a := by
  show i ∈ ((View.whole main_v52_1).slice (win0_12.rect t)).set ↔ _
  rw [View.set_slice_whole, Rect.mem_set_unit]
  exact Iff.rfl

/-- Every node row is in some point's block: row `r` in the block of point `r / 1000`. -/
theorem cover12 (i : S50000x2.Idx) : ∃ t : Fin cfg0.N, (cfg0.win 12).flush t = true ∧ i ∈ ((cfg0.win 12).blk t).view.set := by
  have hi0 : (i 0).val < 50000 := (i 0).isLt
  have hi1 : (i 1).val < 2 := (i 1).isLt
  obtain ⟨t, ht⟩ := idx_onto ⟨(i 0).val / 1000, by omega⟩
  have ht' : win0_11.index t (0 : Fin 2) = (i 0).val / 1000 := ht
  obtain ⟨x0, x1, a0, a1, b0, b1, r0, r1, s0, s1, u0, u1, v0, p0, p1, g0, g1, q0, z0, o0, o1, o2, ob⟩ := idx_facts t
  refine ⟨t, flush0_12 t, ?_⟩
  rw [mem_blk12]
  intro a
  match a with
  | ⟨0, _⟩ => show win0_12.index t (0 : Fin 2) * 1000 ≤ (i 0).val ∧ (i 0).val < win0_12.index t (0 : Fin 2) * 1000 + 1000; omega
  | ⟨1, _⟩ => show win0_12.index t (1 : Fin 2) * 2 ≤ (i 1).val ∧ (i 1).val < win0_12.index t (1 : Fin 2) * 2 + 2; omega

/-- THE SECOND CLASSIFIER'S ARRAY after the region: the logits of every node. -/
theorem final12 (c : Dev nD) : (dats (F := Ideal) m 0 c).arrAt 12 cfg0.N = (allLogits (hidLate (V m c main_v43) (V m c main_v26) (V m c main_v42) (V m c main_v44) (V m c main_v49) (V m c main_v51) (V m c main_arg7)) (V m c main_v47) (V m c main_arg11)) :=
  (dats (F := Ideal) m 0 c).arrAt_eq_of_cover 12 _ (fun t _ => flushed12_eq m c t) cover12

end Cert.KernelIdeal.Blocks

end
-- ==== Proof.LibRowGather.lean ====
/-
  Whole-row gather and scatter-add of a rank-2 array, read at an index.

  A gather of whole rows `h[src]` of an operand `[N, C]` at start indices `[E, 1]` reads, at `(e, c)`, the operand at
  the row the start index names (read signed, clamped into `[0, N − 1]`) and column `c`. The scatter with an `add`
  body of updates `[E, C]` into an operand `[N, C]` at scatter indices `[E, 1]` adds to element `(n, c)` the updates
  `(e, c)` of the edges `e` whose scatter index (read signed, not clamped) is `n`.
-/
import Idealize.ShloMosaic.PureOps.Ideal
import Idealize.ShloMosaic.PureOps.Contract
import Idealize.ShloMosaic.PureOps.ShapeOps
import Idealize.ShloMosaic.Lib.ValueIdx

noncomputable section

open scoped BigOperators

namespace Cert.RowOps

open Idealize.ShloMosaic Idealize.ShloMosaic.ValueIdx

/-! ## The gather of whole rows -/

/-- The dimension numbers of a gather of whole rows: operand `[N, C]`, start indices `[E, 1]`, result `[E, C]`; axis 0 is
    collapsed and indexed, axis 1 is the one offset axis, slice sizes `[1, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an edge reads: its start index read signed, clamped into `[0, N − 1]`. -/
def srcRow {N E w : Nat} (hN : 0 < N) (idx : IVec ⟨2, ![E, 1]⟩ w) (e : Fin E) : Fin N :=
  ⟨min (idx (ix2 e 0)).toInt.toNat (N - 1), by omega⟩

/-- The gather of whole rows read at `(e, c)`: the operand at the clamped source row of edge `e` and column `c`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (srcRow hN idx e) c) := by
  have h0 : (rowGather N E C wf).operandIdx (ix2 e c) idx 0 = srcRow hN idx e := by
    refine Fin.ext ?_
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : (rowGather N E C wf).operandIdx (ix2 e c) idx 1 = c := by
    refine Fin.ext ?_
    show (rowGather N E C wf).start (ix2 e c) idx 1 + (rowGather N E C wf).batchCoord (ix2 e c) 1
      + (rowGather N E C wf).offCoord (ix2 e c) 1 = _
    rw [GatherDims.batchCoord_eq_zero _ _ _ List.not_mem_nil]
    unfold GatherDims.start
    rw [dif_neg (show (1 : Fin 2) ∉ (rowGather N E C wf).startIndexMap from (by decide : (1 : Fin 2) ∉ ([0] : List (Fin 2))))]
    simp only [Nat.add_zero, Nat.zero_add]
    unfold GatherDims.offCoord
    rw [dif_pos ((GatherDims.mem_sKept _ _).mpr ⟨(by decide : (1 : Fin 2) ∉ ([0] : List (Fin 2))), List.not_mem_nil⟩)]
    rfl
  unfold Host.gather
  congr 1
  funext a
  match a with
  | ⟨0, _⟩ => exact h0
  | ⟨1, _⟩ => exact h1

/-! ## The scatter of whole rows with an `add` body -/

/-- The dimension numbers of a scatter of whole rows: operand `[N, C]`, scatter indices `[E, 1]`, updates `[E, C]`;
    operand axis 0 is inserted and indexed, update axis 1 is the one window axis. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e`'s update lands on row `n`: its scatter index, read signed and NOT clamped, is `n`. -/
def Lands {N E w : Nat} (idx : IVec ⟨2, ![E, 1]⟩ w) (e : Fin E) (n : Fin N) : Prop :=
  (idx (ix2 e 0)).toInt = (n.val : Int)

/-- Landing on a row is an equality of integers, hence decidable. -/
instance {N E w : Nat} (idx : IVec ⟨2, ![E, 1]⟩ w) (e : Fin E) (n : Fin N) : Decidable (Lands idx e n) :=
  inferInstanceAs (Decidable ((idx (ix2 e 0)).toInt = (n.val : Int)))

/-- On the indexed axis the window of update `(e, c)` starts at edge `e`'s scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e c) ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window of every update starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx 1 = 0 := by
  unfold ScatterDims.start
  rw [dif_neg (show (1 : Fin 2) ∉ (rowScatter N E C wf).scatterDimsToOperandDims from
    (by decide : (1 : Fin 2) ∉ ([0] : List (Fin 2))))]

/-- The window coordinate of every update on the inserted axis is `0`. -/
theorem rowScatter_window0 {N E C : Nat} (wf : ScatterDims.WF ⟨2, ![N, C]⟩ ⟨2, ![E, 1]⟩ ⟨2, ![E, C]⟩ [1] [0] [0] 1)
    (e : Fin E) (c : Fin C) :
    (rowScatter N E C wf).window (ix2 e c) 0 = 0 := by
  unfold ScatterDims.window
  rw [dif_neg (show (0 : Fin 2) ∉ (rowScatter N E C wf).sKept from
    (by decide : (0 : Fin 2) ∉ (List.finRange 2).filter (· ∉ ([0] : List (Fin 2)))))]

/-- The window coordinate of update `(e, c)` on the column axis is `c`. -/
theorem rowScatter_window1 {N E C : Nat} (wf : ScatterDims.WF ⟨2, ![N, C]⟩ ⟨2, ![E, 1]⟩ ⟨2, ![E, C]⟩ [1] [0] [0] 1)
    (e : Fin E) (c : Fin C) :
    (rowScatter N E C wf).window (ix2 e c) 1 = c.val := by
  unfold ScatterDims.window
  rw [dif_pos (show (1 : Fin 2) ∈ (rowScatter N E C wf).sKept from
    (by decide : (1 : Fin 2) ∈ (List.finRange 2).filter (· ∉ ([0] : List (Fin 2)))))]
  rfl

/-- Update `(e, c)` lands on operand element `(n, c')` exactly when edge `e` lands on row `n` and the columns agree. -/
theorem rowScatter_resultIdx {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatter N E C wf).resultIdx? (ix2 e c) idx = some (ix2 n c') ↔ Lands idx e n ∧ c = c' := by
  have hs0 := rowScatter_start0 wf idx e c
  have hs1 := rowScatter_start1 wf idx e c
  have hw0 := rowScatter_window0 wf e c
  have hw1 := rowScatter_window1 wf e c
  have k0 : (rowScatter N E C wf).start (ix2 e c) idx 0 + ((rowScatter N E C wf).window (ix2 e c) 0 : Int)
      = (idx (ix2 e 0)).toInt := by rw [hs0, hw0]; simp
  have k1 : (rowScatter N E C wf).start (ix2 e c) idx 1 + ((rowScatter N E C wf).window (ix2 e c) 1 : Int)
      = (c.val : Int) := by rw [hs1, hw1]; simp
  unfold ScatterDims.resultIdx?
  constructor
  · intro h
    split at h
    · rename_i hall
      have hf := Option.some.inj h
      have e0 := congrArg Fin.val (congrFun hf 0)
      have e1 := congrArg Fin.val (congrFun hf 1)
      have b0 := (hall 0).1
      rw [k0] at b0
      simp only [k0, k1] at e0 e1
      change _ = n.val at e0
      change _ = c'.val at e1
      refine ⟨?_, Fin.ext ?_⟩
      · show (idx (ix2 e 0)).toInt = (n.val : Int)
        omega
      · omega
    · exact absurd h (by simp)
  · rintro ⟨hl, rfl⟩
    have hl' : (idx (ix2 e 0)).toInt = (n.val : Int) := hl
    have hn := n.isLt
    have hc := c.isLt
    have hall : ∀ a : Fin 2,
        0 ≤ (rowScatter N E C wf).start (ix2 e c) idx a + ((rowScatter N E C wf).window (ix2 e c) a : Int) ∧
        (rowScatter N E C wf).start (ix2 e c) idx a + ((rowScatter N E C wf).window (ix2 e c) a : Int)
          < (((⟨2, ![N, C]⟩ : Shape).size a : Nat) : Int) := by
      intro a
      match a with
      | ⟨0, _⟩ =>
        show 0 ≤ (rowScatter N E C wf).start (ix2 e c) idx 0 + ((rowScatter N E C wf).window (ix2 e c) 0 : Int) ∧
          (rowScatter N E C wf).start (ix2 e c) idx 0 + ((rowScatter N E C wf).window (ix2 e c) 0 : Int) < ((N : Nat) : Int)
        rw [k0]; omega
      | ⟨1, _⟩ =>
        show 0 ≤ (rowScatter N E C wf).start (ix2 e c) idx 1 + ((rowScatter N E C wf).window (ix2 e c) 1 : Int) ∧
          (rowScatter N E C wf).start (ix2 e c) idx 1 + ((rowScatter N E C wf).window (ix2 e c) 1 : Int) < ((C : Nat) : Int)
        rw [k1]; omega
    rw [dif_pos hall]
    congr 1
    funext a
    refine Fin.ext ?_
    match a with
    | ⟨0, _⟩ =>
      show ((rowScatter N E C wf).start (ix2 e c) idx 0 + ((rowScatter N E C wf).window (ix2 e c) 0 : Int)).toNat = n.val
      rw [k0]; omega
    | ⟨1, _⟩ =>
      show ((rowScatter N E C wf).start (ix2 e c) idx 1 + ((rowScatter N E C wf).window (ix2 e c) 1 : Int)).toNat = c.val
      rw [k1]; omega

/-- THE SCATTER-ADD OF WHOLE ROWS READ AT `(n, c)`, at the ideal instance: the operand's element plus the sum, over the edges
    that land on row `n`, of their updates in column `c`. The updates that land on `(n, c)` are the `(e, c)` with `e`
    landing on `n`, so the sum over update indices re-indexes along `e ↦ (e, c)`. -/
theorem rowScatterAdd_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Host.scatterAdd (F := Ideal) (φ := .f32) (rowScatter N E C wf) x idx upd (ix2 n c)
      = x (ix2 n c) + ∑ e ∈ Finset.univ.filter (fun e : Fin E => Lands idx e n), upd (ix2 e c) := by
  unfold Host.scatterAdd
  rw [Ideal.hostScatterAdd_def]
  unfold Ideal.hostScatterAdd
  congr 1
  symm
  refine Finset.sum_bij (fun e _ => ix2 e c) ?_ ?_ ?_ ?_
  · intro e he
    rw [Finset.mem_filter] at he ⊢
    exact ⟨Finset.mem_univ _, (rowScatter_resultIdx wf idx e c n c).mpr ⟨he.2, rfl⟩⟩
  · intro e1 _ e2 _ h
    exact congrFun h 0
  · intro j hj
    rw [Finset.mem_filter] at hj
    obtain ⟨e, c0, rfl⟩ : ∃ e c0, j = ix2 e c0 := ⟨j 0, j 1, eq_ix2 j⟩
    obtain ⟨hl, rfl⟩ := (rowScatter_resultIdx wf idx e c0 n c).mp hj.2
    exact ⟨e, Finset.mem_filter.mpr ⟨Finset.mem_univ _, hl⟩, rfl⟩
  · intro e _
    rfl

end Cert.RowOps

end
-- ==== Proof.KernelResults.lean ====
/-
  The kernel program's two results.

  After the region the program reads each classifier's all-nodes logits at the listed nodes — a gather of whole rows,
  the list's entries normalised first (a negative entry is counted from the end) — and takes the log-softmax over the two
  classes, keeping class 1. A gather of whole rows of the all-nodes logits is the logits of the listed nodes; the
  normalised list and the log-softmax are kept as the operations the program applies, since the reference applies the
  same ones.
-/
import proofs.«131765_j3607772528976_2_alg».proof.Proof.KernelBlocks
import proofs.«131765_j3607772528976_2_alg».proof.Proof.LibRowGather
import Idealize.ShloMosaic.Lib.StableHlo.Run

set_option maxRecDepth 16384

noncomputable section

namespace Cert.KernelIdeal.Results

open Cert.KernelIdeal Cert.KernelIdeal.Gen Cert.KernelIdeal.Blocks Cert.Rgcn Cert.RowOps
open Idealize.ShloMosaic Idealize.ShloMosaic.TcCoe Idealize.ShloMosaic.ValueIdx Idealize.SL.Sem Idealize.ShloMosaic.StableHlo

/-- The list of node numbers as a column of start indices: an entry below zero has 50000 added. -/
def listColumn (p : IVec S32768 32) : IVec S32768x1 32 :=
  broadcastInDim S32768x1 ![0] bcast_S32768_S32768x1_0
    (select (cmpi .slt p (broadcastInDim S32768 ![] bcast_S_S32768 (constantI S_ 32 0#32)))
      (addi p (broadcastInDim S32768 ![] bcast_S_S32768 (constantI S_ 32 50000#32))) p)

/-- The logits less their row maximum (the maximum taken from minus infinity). -/
def shifted (L : FVec Ideal S32768x2 .f32) : FVec Ideal S32768x2 .f32 :=
  subf L (broadcastInDim S32768x2 ![0, 1] bcast_S32768x1_S32768x2_0_1 (broadcastInDim S32768x1 ![0] bcast_S32768_S32768x1_0
    (maximumf (broadcastInDim S32768 ![] bcast_S_S32768 (constant S_ .f32 0xFF800000#32))
      (Host.reduce FloatOps.maximumf L (constant S_ .f32 0xFF800000#32) reducesTo_S32768x2_S32768_d1 h_S_))))

/-- The log-softmax over the two classes, class 1 kept: the shifted logits less the logarithm of the row sum of their
    exponentials, column 1. -/
def logProbOne (L : FVec Ideal S32768x2 .f32) : FVec Ideal S32768 .f32 :=
  shapeCast S32768 (extractStridedSlice S32768x1 ![0, 1]
    (subf (shifted L) (broadcastInDim S32768x2 ![0, 1] bcast_S32768x1_S32768x2_0_1
      (Host.log (broadcastInDim S32768x1 ![0] bcast_S32768_S32768x1_0
        (Host.reduceAdd (Host.exp (shifted L)) (constant S_ .f32 0x00000000#32) reducesTo_S32768x2_S32768_d1 h_S_)))))
    slices_S32768x2_S32768x1_0_1) shapeCasts_S32768x1_S32768

/-- Whole rows of the all-nodes logits, gathered: the logits of the listed nodes. -/
theorem gather_allLogits (H : Fin 50000 → Fin 1024 → EReal) (Wc : SDxC.Idx → EReal) (Bc : SC.Idx → EReal) (idx : IVec S32768x1 32) :
    Host.gather gather_S50000x2_S32768x1_S32768x2_1_0_n_n_0_1_12 (allLogits H Wc Bc) idx
      = listedLogits H Wc Bc (fun g => srcRow (N := 50000) (by decide) idx g) := by
  funext i
  obtain ⟨g, j, rfl⟩ : ∃ (g : Fin 32768) (j : Fin 2), i = ix2 g j := ⟨i 0, i 1, eq_ix2 i⟩
  exact rowGather_apply (by decide : 0 < 50000) gather_S50000x2_S32768x1_S32768x2_1_0_n_n_0_1_12.wf (allLogits H Wc Bc) idx g j

variable (m : (ℓ : Loc nD τ sig) → Buf (Elt Ideal) ℓ) (ρ : Dev nD → PrngReg)

/-- After the region the first classifier's array holds the logits of every node … -/
theorem arr11 (c : Dev nD) : Pipeline.withArrays (cfgs 0).spec c (V0 m c) (fun w => (dats (F := Ideal) m 0 c).arrAt w (cfgs 0).N) (Proc.devRef .tc main_v52_0) = (allLogits (hidLate (V m c main_v43) (V m c main_v26) (V m c main_v42) (V m c main_v44) (V m c main_v49) (V m c main_v51) (V m c main_arg7)) (V m c main_v46) (V m c main_arg9)) :=
  (Pipeline.withArrays_arr spec0 launch0.win.arr_inj c (V0 m c) (fun w => (dats (F := Ideal) m 0 c).arrAt w cfg0.N) 11).trans (final11 m c)
/-- … and the second classifier's array likewise. -/
theorem arr12 (c : Dev nD) : Pipeline.withArrays (cfgs 0).spec c (V0 m c) (fun w => (dats (F := Ideal) m 0 c).arrAt w (cfgs 0).N) (Proc.devRef .tc main_v52_1) = (allLogits (hidLate (V m c main_v43) (V m c main_v26) (V m c main_v42) (V m c main_v44) (V m c main_v49) (V m c main_v51) (V m c main_arg7)) (V m c main_v47) (V m c main_arg11)) :=
  (Pipeline.withArrays_arr spec0 launch0.win.arr_inj c (V0 m c) (fun w => (dats (F := Ideal) m 0 c).arrAt w cfg0.N) 12).trans (final12 m c)
/-- The two lists are no array of the region and nothing before it writes them. -/
theorem list3 (c : Dev nD) : Pipeline.withArrays (cfgs 0).spec c (V0 m c) (fun w => (dats (F := Ideal) m 0 c).arrAt w (cfgs 0).N) (Proc.devRef .tc main_arg3) = m ((c.tc : Thread nD τ).loc main_arg3) :=
  (Pipeline.withArrays_of_ne spec0 c (V0 m c) (fun w => (dats (F := Ideal) m 0 c).arrAt w cfg0.N) main_arg3 (by decide)).trans (V_main_arg3 m c)
theorem list4 (c : Dev nD) : Pipeline.withArrays (cfgs 0).spec c (V0 m c) (fun w => (dats (F := Ideal) m 0 c).arrAt w (cfgs 0).N) (Proc.devRef .tc main_arg4) = m ((c.tc : Thread nD τ).loc main_arg4) :=
  (Pipeline.withArrays_of_ne spec0 c (V0 m c) (fun w => (dats (F := Ideal) m 0 c).arrAt w cfg0.N) main_arg4 (by decide)).trans (V_main_arg4 m c)

set_option maxRecDepth 262144 in
set_option maxHeartbeats 16000000 in
/-- The first result after the operations that follow the region. -/
theorem first_result (c : Dev nD) :
    Pipeline.afterTail₀ cfgs (dats (F := Ideal) m) 0 (V0 m) [hostOps1, hostOps1_1, hostOps1_2, hostOps1_3, hostOps1_4] c main_v69
      = logProbOne (Host.gather gather_S50000x2_S32768x1_S32768x2_1_0_n_n_0_1_12 (allLogits (hidLate (V m c main_v43) (V m c main_v26) (V m c main_v42) (V m c main_v44) (V m c main_v49) (V m c main_v51) (V m c main_arg7)) (V m c main_v46) (V m c main_arg9))
          (listColumn (m ((c.tc : Thread nD τ).loc main_arg3)))) := by
  unfold Pipeline.afterTail₀
  simp only [hostOps1, hostOps1_1, hostOps1_2, hostOps1_3, hostOps1_4, List.flatten_cons, List.flatten_nil, List.append_nil, List.cons_append, List.nil_append]
  after_results
  simp only [arr11 m c, list3 m c]
  rfl

set_option maxRecDepth 262144 in
set_option maxHeartbeats 16000000 in
/-- The second result after the operations that follow the region. -/
theorem second_result (c : Dev nD) :
    Pipeline.afterTail₀ cfgs (dats (F := Ideal) m) 0 (V0 m) [hostOps1, hostOps1_1, hostOps1_2, hostOps1_3, hostOps1_4] c main_v72
      = logProbOne (Host.gather gather_S50000x2_S32768x1_S32768x2_1_0_n_n_0_1_12 (allLogits (hidLate (V m c main_v43) (V m c main_v26) (V m c main_v42) (V m c main_v44) (V m c main_v49) (V m c main_v51) (V m c main_arg7)) (V m c main_v47) (V m c main_arg11))
          (listColumn (m ((c.tc : Thread nD τ).loc main_arg4)))) := by
  unfold Pipeline.afterTail₀
  simp only [hostOps1, hostOps1_1, hostOps1_2, hostOps1_3, hostOps1_4, List.flatten_cons, List.flatten_nil, List.append_nil, List.cons_append, List.nil_append]
  after_results
  simp only [arr12 m c, list4 m c]
  rfl

/-- THE RUN, READ: every weakly fair execution terminates with the two results at the class-1 log-probabilities of the listed
    nodes' logits — as functions of the arrays the region finds — and the arguments unchanged. -/
theorem run : θ_run defs (onTc (τ := τ) (main (F := Ideal))) ⟨m, fun _ => 0, ρ⟩ (fun r => ∀ c : Dev nD,
      r.2.mem ((c.tc : Thread nD τ).loc main_v69)
        = logProbOne (listedLogits (hidLate (V m c main_v43) (V m c main_v26) (V m c main_v42) (V m c main_v44) (V m c main_v49) (V m c main_v51) (V m c main_arg7)) (V m c main_v46) (V m c main_arg9)
            (fun g => srcRow (N := 50000) (by decide) (listColumn (m ((c.tc : Thread nD τ).loc main_arg3))) g))
      ∧ r.2.mem ((c.tc : Thread nD τ).loc main_v72)
        = logProbOne (listedLogits (hidLate (V m c main_v43) (V m c main_v26) (V m c main_v42) (V m c main_v44) (V m c main_v49) (V m c main_v51) (V m c main_arg7)) (V m c main_v47) (V m c main_arg11)
            (fun g => srcRow (N := 50000) (by decide) (listColumn (m ((c.tc : Thread nD τ).loc main_arg4))) g))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨((h c).2 main_v69 (Pipeline.mem_restRefs_of main_v69 (by decide) (by decide))).trans
        ((first_result m c).trans (congrArg logProbOne (gather_allLogits _ _ _ _))),
      ((h c).2 main_v72 (Pipeline.mem_restRefs_of main_v72 (by decide) (by decide))).trans
        ((second_result m c).trans (congrArg logProbOne (gather_allLogits _ _ _ _))),
      (((h c).2 main_arg0 (Pipeline.mem_restRefs_of main_arg0 (by decide) (by decide))).trans (W_main_arg0 m (dats (F := Ideal) m) c)),
      (((h c).2 main_arg1 (Pipeline.mem_restRefs_of main_arg1 (by decide) (by decide))).trans (W_main_arg1 m (dats (F := Ideal) m) c)),
      (((h c).2 main_arg2 (Pipeline.mem_restRefs_of main_arg2 (by decide) (by decide))).trans (W_main_arg2 m (dats (F := Ideal) m) c)),
      (((h c).2 main_arg3 (Pipeline.mem_restRefs_of main_arg3 (by decide) (by decide))).trans (W_main_arg3 m (dats (F := Ideal) m) c)),
      (((h c).2 main_arg4 (Pipeline.mem_restRefs_of main_arg4 (by decide) (by decide))).trans (W_main_arg4 m (dats (F := Ideal) m) c)),
      (((h c).2 main_arg5 (Pipeline.mem_restRefs_of main_arg5 (by decide) (by decide))).trans (W_main_arg5 m (dats (F := Ideal) m) c)),
      (((h c).2 main_arg6 (Pipeline.mem_restRefs_of main_arg6 (by decide) (by decide))).trans (W_main_arg6 m (dats (F := Ideal) m) c)),
      ((h c).1 6).trans (((dats (F := Ideal) m 0 c).arrAt_in 6 rfl _).trans ((A_eq m c 6).trans (V_main_arg7 m c))),
      (((h c).2 main_arg8 (Pipeline.mem_restRefs_of main_arg8 (by decide) (by decide))).trans (W_main_arg8 m (dats (F := Ideal) m) c)),
      ((h c).1 9).trans (((dats (F := Ideal) m 0 c).arrAt_in 9 rfl _).trans ((A_eq m c 9).trans (V_main_arg9 m c))),
      (((h c).2 main_arg10 (Pipeline.mem_restRefs_of main_arg10 (by decide) (by decide))).trans (W_main_arg10 m (dats (F := Ideal) m) c)),
      ((h c).1 10).trans (((dats (F := Ideal) m 0 c).arrAt_in 10 rfl _).trans ((A_eq m c 10).trans (V_main_arg11 m c)))⟩)
    (run_main m ρ)

end Cert.KernelIdeal.Results

end
-- ==== Proof.RefLogits.lean ====
/-
  The reference's logits of the listed nodes, at the extended reals.

  The reference forms the hidden array of all nodes — the root transform plus the bias, then the two relations' transforms
  of the mean-aggregated neighbour arrays —, gathers the hidden rows of the listed nodes, multiplies them by a
  classifier's weights and adds the classifier's bias. Read at an index: hidden entry `(n, k)` is the three
  row-by-column sums and the bias in the reference's order of addition; a gathered row is the hidden row the list's entry
  names (read signed, clamped into the node range); so logit `(g, j)` is the named node's hidden row times column `j`
  plus bias `j`. The aggregated arrays and the two relation transforms stay the stages the program computes them by.
-/
import proofs.«131765_j3607772528976_2_alg».proof.Proof.RefReadPatched
import proofs.«131765_j3607772528976_2_alg».proof.Proof.LibRowGather
import proofs.«131765_j3607772528976_2_alg».proof.Proof.Spec

noncomputable section

open scoped BigOperators

namespace Cert.ReferenceIdeal.Logits

open Cert.ReferenceIdeal Cert.ReferenceIdeal.ReadP Idealize.ShloMosaic Idealize.ShloMosaic.ValueIdx Cert.Rgcn Cert.RowOps

/-- Entry `(n, k)` of the reference's hidden array. -/
theorem hidden_apply (x0 : (⟨S50000x1024, .f32⟩ : BufTy).Contents (Elt Ideal)) (x1 : (⟨S2x65536, .i32⟩ : BufTy).Contents (Elt Ideal)) (x2 : (⟨S65536, .i32⟩ : BufTy).Contents (Elt Ideal)) (x5 : (⟨S1024x1024, .f32⟩ : BufTy).Contents (Elt Ideal)) (x6 : (⟨S2x1024x1024, .f32⟩ : BufTy).Contents (Elt Ideal)) (x7 : (⟨S1024, .f32⟩ : BufTy).Contents (Elt Ideal)) (n : Fin 50000) (k : Fin 1024) :
    val_main_v52 (F := Ideal) x0 x1 x2 x5 x6 x7 (ix2 n k) = (hidEarly x0 (val_main_v29 (F := Ideal) x0 x1 x2) (val_main_v48 (F := Ideal) x0 x1 x2) x5 (val_main_v31 (F := Ideal) x6) (val_main_v50 (F := Ideal) x6) x7) n k := by
  rw [val_main_v52_apply, val_main_v33_apply, val_main_v14_apply, val_main_v11_apply, val_main_v13_apply, val_main_v12_apply,
    val_main_v32_apply, val_main_v51_apply]
  have l11 : ∀ l : Fin 1024, lidx_main_v11 (ix2 n k) l = ix2 n l := fun l => funext fun a => Fin.ext (by match a with | ⟨0, _⟩ => rfl | ⟨1, _⟩ => rfl)
  have r11 : ∀ l : Fin 1024, ridx_main_v11 (ix2 n k) l = ix2 l k := fun l => funext fun a => Fin.ext (by match a with | ⟨0, _⟩ => rfl | ⟨1, _⟩ => rfl)
  have l32 : ∀ l : Fin 1024, lidx_main_v32 (ix2 n k) l = ix2 n l := fun l => funext fun a => Fin.ext (by match a with | ⟨0, _⟩ => rfl | ⟨1, _⟩ => rfl)
  have r32 : ∀ l : Fin 1024, ridx_main_v32 (ix2 n k) l = ix2 l k := fun l => funext fun a => Fin.ext (by match a with | ⟨0, _⟩ => rfl | ⟨1, _⟩ => rfl)
  have l51 : ∀ l : Fin 1024, lidx_main_v51 (ix2 n k) l = ix2 n l := fun l => funext fun a => Fin.ext (by match a with | ⟨0, _⟩ => rfl | ⟨1, _⟩ => rfl)
  have r51 : ∀ l : Fin 1024, ridx_main_v51 (ix2 n k) l = ix2 l k := fun l => funext fun a => Fin.ext (by match a with | ⟨0, _⟩ => rfl | ⟨1, _⟩ => rfl)
  have ib : idx_main_v12 (idx_main_v13 (ix2 n k)) = ix1 k := funext fun a => Fin.ext (by match a with | ⟨0, _⟩ => rfl)
  simp only [l11, r11, l32, r32, l51, r51, ib]
  rfl

/-- The first classifier's logits of the listed nodes: the gather of whole hidden rows, the product with the classifier's
    weights and the bias on every row, read at `(g, j)`, are logit `j` of the node row `g` of the list names. -/
theorem first_eq (x0 : (⟨S50000x1024, .f32⟩ : BufTy).Contents (Elt Ideal)) (x1 : (⟨S2x65536, .i32⟩ : BufTy).Contents (Elt Ideal)) (x2 : (⟨S65536, .i32⟩ : BufTy).Contents (Elt Ideal)) (x3 : (⟨S32768, .i32⟩ : BufTy).Contents (Elt Ideal)) (x5 : (⟨S1024x1024, .f32⟩ : BufTy).Contents (Elt Ideal)) (x6 : (⟨S2x1024x1024, .f32⟩ : BufTy).Contents (Elt Ideal)) (x7 : (⟨S1024, .f32⟩ : BufTy).Contents (Elt Ideal)) (x8 : (⟨S1024x2, .f32⟩ : BufTy).Contents (Elt Ideal)) (x9 : (⟨S2, .f32⟩ : BufTy).Contents (Elt Ideal)) :
    val_main_v63 (F := Ideal) x0 x1 x2 x3 x5 x6 x7 x8 x9
      = listedLogits (hidEarly x0 (val_main_v29 (F := Ideal) x0 x1 x2) (val_main_v48 (F := Ideal) x0 x1 x2) x5 (val_main_v31 (F := Ideal) x6) (val_main_v50 (F := Ideal) x6) x7) x8 x9 (fun g => srcRow (N := 50000) (by decide) (val_main_v58 (F := Ideal) x3) g) := by
  funext i
  obtain ⟨g, j, rfl⟩ : ∃ (g : Fin 32768) (j : Fin 2), i = ix2 g j := ⟨i 0, i 1, eq_ix2 i⟩
  rw [val_main_v63_apply, val_main_v60_apply, val_main_v62_apply, val_main_v61_apply]
  unfold listedLogits logit
  refine congrArg₂ (· + ·) (Finset.sum_congr rfl fun k _ => ?_) ?_
  · have el : lidx_main_v60 (ix2 g j) k = ix2 g k := funext fun a => Fin.ext (by match a with | ⟨0, _⟩ => rfl | ⟨1, _⟩ => rfl)
    have er : ridx_main_v60 (ix2 g j) k = ix2 k j := funext fun a => Fin.ext (by match a with | ⟨0, _⟩ => rfl | ⟨1, _⟩ => rfl)
    rw [el, er]
    refine congrArg (· * x8 (ix2 k j)) ?_
    unfold val_main_v59
    exact (rowGather_apply (by decide : 0 < 50000) gather_S50000x1024_S32768x1_S32768x1024_1_0_n_n_0_1_11024.wf
      (val_main_v52 (F := Ideal) x0 x1 x2 x5 x6 x7) (val_main_v58 (F := Ideal) x3) g k).trans (hidden_apply x0 x1 x2 x5 x6 x7 _ k)
  · exact congrArg x9 (funext fun a => Fin.ext (by match a with | ⟨0, _⟩ => rfl))

/-- The second classifier's logits of the listed nodes: the gather of whole hidden rows, the product with the classifier's
    weights and the bias on every row, read at `(g, j)`, are logit `j` of the node row `g` of the list names. -/
theorem second_eq (x0 : (⟨S50000x1024, .f32⟩ : BufTy).Contents (Elt Ideal)) (x1 : (⟨S2x65536, .i32⟩ : BufTy).Contents (Elt Ideal)) (x2 : (⟨S65536, .i32⟩ : BufTy).Contents (Elt Ideal)) (x4 : (⟨S32768, .i32⟩ : BufTy).Contents (Elt Ideal)) (x5 : (⟨S1024x1024, .f32⟩ : BufTy).Contents (Elt Ideal)) (x6 : (⟨S2x1024x1024, .f32⟩ : BufTy).Contents (Elt Ideal)) (x7 : (⟨S1024, .f32⟩ : BufTy).Contents (Elt Ideal)) (x10 : (⟨S1024x2, .f32⟩ : BufTy).Contents (Elt Ideal)) (x11 : (⟨S2, .f32⟩ : BufTy).Contents (Elt Ideal)) :
    val_main_v74 (F := Ideal) x0 x1 x2 x4 x5 x6 x7 x10 x11
      = listedLogits (hidEarly x0 (val_main_v29 (F := Ideal) x0 x1 x2) (val_main_v48 (F := Ideal) x0 x1 x2) x5 (val_main_v31 (F := Ideal) x6) (val_main_v50 (F := Ideal) x6) x7) x10 x11 (fun g => srcRow (N := 50000) (by decide) (val_main_v69 (F := Ideal) x4) g) := by
  funext i
  obtain ⟨g, j, rfl⟩ : ∃ (g : Fin 32768) (j : Fin 2), i = ix2 g j := ⟨i 0, i 1, eq_ix2 i⟩
  rw [val_main_v74_apply, val_main_v71_apply, val_main_v73_apply, val_main_v72_apply]
  unfold listedLogits logit
  refine congrArg₂ (· + ·) (Finset.sum_congr rfl fun k _ => ?_) ?_
  · have el : lidx_main_v71 (ix2 g j) k = ix2 g k := funext fun a => Fin.ext (by match a with | ⟨0, _⟩ => rfl | ⟨1, _⟩ => rfl)
    have er : ridx_main_v71 (ix2 g j) k = ix2 k j := funext fun a => Fin.ext (by match a with | ⟨0, _⟩ => rfl | ⟨1, _⟩ => rfl)
    rw [el, er]
    refine congrArg (· * x10 (ix2 k j)) ?_
    unfold val_main_v70
    exact (rowGather_apply (by decide : 0 < 50000) gather_S50000x1024_S32768x1_S32768x1024_1_0_n_n_0_1_11024.wf
      (val_main_v52 (F := Ideal) x0 x1 x2 x5 x6 x7) (val_main_v69 (F := Ideal) x4) g k).trans (hidden_apply x0 x1 x2 x5 x6 x7 _ k)
  · exact congrArg x11 (funext fun a => Fin.ext (by match a with | ⟨0, _⟩ => rfl))

end Cert.ReferenceIdeal.Logits

end
-- ==== Proof.Bridge.lean ====
/-
  The arrays the region finds, and the two programs' common results.

  Before the region the kernel program computes the two mean-aggregated neighbour arrays and cuts the relation weights
  with the very operations the reference uses (a gather of source rows, masked scatter-adds by destination, a division
  by the clipped in-degree; a slice and a reshape), and narrows every float array to bf16, which is the identity on
  extended reals. So each array the region finds is the corresponding stage of the reference at the same arguments.
  After its logits the reference applies the same log-softmax and keeps the same column as the kernel program.
  Both programs therefore end at one value: the class-1 log-probability of the listed nodes' logits, the hidden rows
  added in either order (Spec: the two orders agree).
-/
import proofs.«131765_j3607772528976_2_alg».proof.Proof.KernelResults
import proofs.«131765_j3607772528976_2_alg».proof.Proof.RefLogits

set_option maxRecDepth 16384

noncomputable section

namespace Cert.KernelIdeal.Found

open Cert.KernelIdeal Cert.KernelIdeal.Gen Cert.KernelIdeal.Results Cert.Rgcn Cert.RowOps
open Idealize.ShloMosaic Idealize.ShloMosaic.TcCoe Idealize.ShloMosaic.ValueIdx Idealize.SL.Sem Idealize.ShloMosaic.StableHlo

variable (m : (ℓ : Loc nD τ sig) → Buf (Elt Ideal) ℓ)

set_option maxRecDepth 262144 in
set_option maxHeartbeats 16000000 in
/-- The node features, narrowed: the argument. -/
theorem feats (c : Dev nD) : (V m c main_v43 : S50000x1024.Idx → EReal) = (m ((c.tc : Thread nD τ).loc main_arg0)) := by
  dsimp only [V, V0]
  simp only [hostOps0, hostOps0_1, hostOps0_2, hostOps0_3, hostOps0_4, List.flatten_cons, List.flatten_nil, List.append_nil, List.cons_append,
    List.nil_append]
  after_results
  rfl

set_option maxRecDepth 262144 in
set_option maxHeartbeats 16000000 in
/-- Relation 0's mean-aggregated neighbour array: the reference's stage. -/
theorem agg0 (c : Dev nD) : (V m c main_v26 : S50000x1024.Idx → EReal) = Cert.ReferenceIdeal.ReadP.val_main_v29 (F := Ideal) (m ((c.tc : Thread nD τ).loc main_arg0)) (m ((c.tc : Thread nD τ).loc main_arg1)) (m ((c.tc : Thread nD τ).loc main_arg2)) := by
  dsimp only [V, V0]
  simp only [hostOps0, hostOps0_1, hostOps0_2, hostOps0_3, hostOps0_4, List.flatten_cons, List.flatten_nil, List.append_nil, List.cons_append,
    List.nil_append]
  after_results
  rfl

set_option maxRecDepth 262144 in
set_option maxHeartbeats 16000000 in
/-- Relation 1's mean-aggregated neighbour array: the reference's stage. -/
theorem agg1 (c : Dev nD) : (V m c main_v42 : S50000x1024.Idx → EReal) = Cert.ReferenceIdeal.ReadP.val_main_v48 (F := Ideal) (m ((c.tc : Thread nD τ).loc main_arg0)) (m ((c.tc : Thread nD τ).loc main_arg1)) (m ((c.tc : Thread nD τ).loc main_arg2)) := by
  dsimp only [V, V0]
  simp only [hostOps0, hostOps0_1, hostOps0_2, hostOps0_3, hostOps0_4, List.flatten_cons, List.flatten_nil, List.append_nil, List.cons_append,
    List.nil_append]
  after_results
  rfl

set_option maxRecDepth 262144 in
set_option maxHeartbeats 16000000 in
/-- The root transform, narrowed: the argument. -/
theorem wroot (c : Dev nD) : (V m c main_v44 : S1024x1024.Idx → EReal) = (m ((c.tc : Thread nD τ).loc main_arg5)) := by
  dsimp only [V, V0]
  simp only [hostOps0, hostOps0_1, hostOps0_2, hostOps0_3, hostOps0_4, List.flatten_cons, List.flatten_nil, List.append_nil, List.cons_append,
    List.nil_append]
  after_results
  rfl

set_option maxRecDepth 262144 in
set_option maxHeartbeats 16000000 in
/-- Relation 0's transform: the reference's slice of the stacked weights. -/
theorem wrel0 (c : Dev nD) : (V m c main_v49 : S1024x1024.Idx → EReal) = Cert.ReferenceIdeal.ReadP.val_main_v31 (F := Ideal) (m ((c.tc : Thread nD τ).loc main_arg6)) := by
  dsimp only [V, V0]
  simp only [hostOps0, hostOps0_1, hostOps0_2, hostOps0_3, hostOps0_4, List.flatten_cons, List.flatten_nil, List.append_nil, List.cons_append,
    List.nil_append]
  after_results
  rfl

set_option maxRecDepth 262144 in
set_option maxHeartbeats 16000000 in
/-- Relation 1's transform: the reference's slice of the stacked weights. -/
theorem wrel1 (c : Dev nD) : (V m c main_v51 : S1024x1024.Idx → EReal) = Cert.ReferenceIdeal.ReadP.val_main_v50 (F := Ideal) (m ((c.tc : Thread nD τ).loc main_arg6)) := by
  dsimp only [V, V0]
  simp only [hostOps0, hostOps0_1, hostOps0_2, hostOps0_3, hostOps0_4, List.flatten_cons, List.flatten_nil, List.append_nil, List.cons_append,
    List.nil_append]
  after_results
  rfl

set_option maxRecDepth 262144 in
set_option maxHeartbeats 16000000 in
/-- The first classifier's weights, narrowed: the argument. -/
theorem wfirst (c : Dev nD) : (V m c main_v46 : S1024x2.Idx → EReal) = (m ((c.tc : Thread nD τ).loc main_arg8)) := by
  dsimp only [V, V0]
  simp only [hostOps0, hostOps0_1, hostOps0_2, hostOps0_3, hostOps0_4, List.flatten_cons, List.flatten_nil, List.append_nil, List.cons_append,
    List.nil_append]
  after_results
  rfl

set_option maxRecDepth 262144 in
set_option maxHeartbeats 16000000 in
/-- The second classifier's weights, narrowed: the argument. -/
theorem wsecond (c : Dev nD) : (V m c main_v47 : S1024x2.Idx → EReal) = (m ((c.tc : Thread nD τ).loc main_arg10)) := by
  dsimp only [V, V0]
  simp only [hostOps0, hostOps0_1, hostOps0_2, hostOps0_3, hostOps0_4, List.flatten_cons, List.flatten_nil, List.append_nil, List.cons_append,
    List.nil_append]
  after_results
  rfl

/-- The first result both programs end at, from the kernel program's arguments. -/
def firstValue (c : Dev nD) : FVec Ideal S32768 .f32 :=
  logProbOne (listedLogits (hidEarly (m ((c.tc : Thread nD τ).loc main_arg0)) (Cert.ReferenceIdeal.ReadP.val_main_v29 (F := Ideal) (m ((c.tc : Thread nD τ).loc main_arg0)) (m ((c.tc : Thread nD τ).loc main_arg1)) (m ((c.tc : Thread nD τ).loc main_arg2))) (Cert.ReferenceIdeal.ReadP.val_main_v48 (F := Ideal) (m ((c.tc : Thread nD τ).loc main_arg0)) (m ((c.tc : Thread nD τ).loc main_arg1)) (m ((c.tc : Thread nD τ).loc main_arg2))) (m ((c.tc : Thread nD τ).loc main_arg5)) (Cert.ReferenceIdeal.ReadP.val_main_v31 (F := Ideal) (m ((c.tc : Thread nD τ).loc main_arg6))) (Cert.ReferenceIdeal.ReadP.val_main_v50 (F := Ideal) (m ((c.tc : Thread nD τ).loc main_arg6))) (m ((c.tc : Thread nD τ).loc main_arg7))) (m ((c.tc : Thread nD τ).loc main_arg8)) (m ((c.tc : Thread nD τ).loc main_arg9))
    (fun g => srcRow (N := 50000) (by decide) (Cert.ReferenceIdeal.ReadP.val_main_v58 (F := Ideal) (m ((c.tc : Thread nD τ).loc main_arg3))) g))

/-- The second result both programs end at, from the kernel program's arguments. -/
def secondValue (c : Dev nD) : FVec Ideal S32768 .f32 :=
  logProbOne (listedLogits (hidEarly (m ((c.tc : Thread nD τ).loc main_arg0)) (Cert.ReferenceIdeal.ReadP.val_main_v29 (F := Ideal) (m ((c.tc : Thread nD τ).loc main_arg0)) (m ((c.tc : Thread nD τ).loc main_arg1)) (m ((c.tc : Thread nD τ).loc main_arg2))) (Cert.ReferenceIdeal.ReadP.val_main_v48 (F := Ideal) (m ((c.tc : Thread nD τ).loc main_arg0)) (m ((c.tc : Thread nD τ).loc main_arg1)) (m ((c.tc : Thread nD τ).loc main_arg2))) (m ((c.tc : Thread nD τ).loc main_arg5)) (Cert.ReferenceIdeal.ReadP.val_main_v31 (F := Ideal) (m ((c.tc : Thread nD τ).loc main_arg6))) (Cert.ReferenceIdeal.ReadP.val_main_v50 (F := Ideal) (m ((c.tc : Thread nD τ).loc main_arg6))) (m ((c.tc : Thread nD τ).loc main_arg7))) (m ((c.tc : Thread nD τ).loc main_arg10)) (m ((c.tc : Thread nD τ).loc main_arg11))
    (fun g => srcRow (N := 50000) (by decide) (Cert.ReferenceIdeal.ReadP.val_main_v69 (F := Ideal) (m ((c.tc : Thread nD τ).loc main_arg4))) g))

/-- The kernel program's first result is the common value: the arrays found are the reference's stages, and the bias may
    be added before the relation terms. -/
theorem kernel_first (c : Dev nD) :
    logProbOne (listedLogits (hidLate (V m c main_v43) (V m c main_v26) (V m c main_v42) (V m c main_v44) (V m c main_v49) (V m c main_v51) (V m c main_arg7)) (V m c main_v46) (V m c main_arg9)
      (fun g => srcRow (N := 50000) (by decide) (listColumn (m ((c.tc : Thread nD τ).loc main_arg3))) g)) = firstValue m c := by
  rw [feats m c, agg0 m c, agg1 m c, wroot m c, wrel0 m c, wrel1 m c, V_main_arg7 m c, wfirst m c, V_main_arg9 m c, hidLate_eq_hidEarly]
  rfl

/-- The kernel program's second result is the common value. -/
theorem kernel_second (c : Dev nD) :
    logProbOne (listedLogits (hidLate (V m c main_v43) (V m c main_v26) (V m c main_v42) (V m c main_v44) (V m c main_v49) (V m c main_v51) (V m c main_arg7)) (V m c main_v47) (V m c main_arg11)
      (fun g => srcRow (N := 50000) (by decide) (listColumn (m ((c.tc : Thread nD τ).loc main_arg4))) g)) = secondValue m c := by
  rw [feats m c, agg0 m c, agg1 m c, wroot m c, wrel0 m c, wrel1 m c, V_main_arg7 m c, wsecond m c, V_main_arg11 m c, hidLate_eq_hidEarly]
  rfl

/-- The reference's first result is the log-softmax column of its first logits … -/
theorem ref_first_tail (x0 : (⟨Cert.ReferenceIdeal.S50000x1024, .f32⟩ : BufTy).Contents (Elt Ideal)) (x1 : (⟨Cert.ReferenceIdeal.S2x65536, .i32⟩ : BufTy).Contents (Elt Ideal)) (x2 : (⟨Cert.ReferenceIdeal.S65536, .i32⟩ : BufTy).Contents (Elt Ideal)) (x3 : (⟨Cert.ReferenceIdeal.S32768, .i32⟩ : BufTy).Contents (Elt Ideal)) (x5 : (⟨Cert.ReferenceIdeal.S1024x1024, .f32⟩ : BufTy).Contents (Elt Ideal)) (x6 : (⟨Cert.ReferenceIdeal.S2x1024x1024, .f32⟩ : BufTy).Contents (Elt Ideal)) (x7 : (⟨Cert.ReferenceIdeal.S1024, .f32⟩ : BufTy).Contents (Elt Ideal)) (x8 : (⟨Cert.ReferenceIdeal.S1024x2, .f32⟩ : BufTy).Contents (Elt Ideal)) (x9 : (⟨Cert.ReferenceIdeal.S2, .f32⟩ : BufTy).Contents (Elt Ideal)) :
    Cert.ReferenceIdeal.ReadP.val_main_v77 (F := Ideal) x0 x1 x2 x3 x5 x6 x7 x8 x9 = logProbOne (Cert.ReferenceIdeal.ReadP.val_main_v63 (F := Ideal) x0 x1 x2 x3 x5 x6 x7 x8 x9) := rfl

/-- … and its second result that of its second logits. -/
theorem ref_second_tail (x0 : (⟨Cert.ReferenceIdeal.S50000x1024, .f32⟩ : BufTy).Contents (Elt Ideal)) (x1 : (⟨Cert.ReferenceIdeal.S2x65536, .i32⟩ : BufTy).Contents (Elt Ideal)) (x2 : (⟨Cert.ReferenceIdeal.S65536, .i32⟩ : BufTy).Contents (Elt Ideal)) (x4 : (⟨Cert.ReferenceIdeal.S32768, .i32⟩ : BufTy).Contents (Elt Ideal)) (x5 : (⟨Cert.ReferenceIdeal.S1024x1024, .f32⟩ : BufTy).Contents (Elt Ideal)) (x6 : (⟨Cert.ReferenceIdeal.S2x1024x1024, .f32⟩ : BufTy).Contents (Elt Ideal)) (x7 : (⟨Cert.ReferenceIdeal.S1024, .f32⟩ : BufTy).Contents (Elt Ideal)) (x10 : (⟨Cert.ReferenceIdeal.S1024x2, .f32⟩ : BufTy).Contents (Elt Ideal)) (x11 : (⟨Cert.ReferenceIdeal.S2, .f32⟩ : BufTy).Contents (Elt Ideal)) :
    Cert.ReferenceIdeal.ReadP.val_main_v80 (F := Ideal) x0 x1 x2 x4 x5 x6 x7 x10 x11 = logProbOne (Cert.ReferenceIdeal.ReadP.val_main_v74 (F := Ideal) x0 x1 x2 x4 x5 x6 x7 x10 x11) := rfl

/-- The reference's first result at the kernel program's arguments is the common value. -/
theorem ref_first (c : Dev nD) :
    Cert.ReferenceIdeal.ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = firstValue m c := by
  rw [ref_first_tail, Cert.ReferenceIdeal.Logits.first_eq]
  rfl

/-- The reference's second result at the kernel program's arguments is the common value. -/
theorem ref_second (c : Dev nD) :
    Cert.ReferenceIdeal.ReadP.val_main_v80 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) = secondValue m c := by
  rw [ref_second_tail, Cert.ReferenceIdeal.Logits.second_eq]
  rfl

end Cert.KernelIdeal.Found

end
-- ==== Proof.lean ====
/-
  Two programs compute, for two lists of graph nodes, the class-1 log-probability of two small classifiers applied to
  the nodes' hidden rows after one relational graph convolution with mean aggregation over two relations.

  The reference forms the hidden array of all 50000 nodes (root transform plus bias, then each relation's transform of
  the relation's mean-aggregated neighbour features), gathers the listed nodes' hidden rows, applies a classifier and
  takes the log-softmax. The kernel program computes the same aggregated arrays on the host, lets a kernel form, block
  of 1000 nodes by block, the hidden rows (bias added last) and at once both classifiers' logits of EVERY node, and
  gathers the listed nodes' logits afterwards. At the extended reals the narrowings to bf16 are the identity, a matrix
  product into a zero accumulator is the host's product, gathering rows commutes with a row-wise product, and moving
  the bias across the two relation terms only reorders a sum in a commutative monoid; so both programs end at one value
  (Proof/Bridge.lean), and no finiteness of the inputs is used. The idealization rewrote nothing, so `preserves` is
  trivial; the kernel programs' frames are the generated ones, the reference's frame is its run with the results dropped.
-/
import proofs.«131765_j3607772528976_2_alg».proof.Defs
import proofs.«131765_j3607772528976_2_alg».proof.Proof.Gen.Kernel
import proofs.«131765_j3607772528976_2_alg».proof.Proof.Gen.Kernel.Frame
import proofs.«131765_j3607772528976_2_alg».proof.Proof.Gen.KernelIdeal
import proofs.«131765_j3607772528976_2_alg».proof.Proof.Gen.KernelIdeal.Frame
import proofs.«131765_j3607772528976_2_alg».proof.Proof.Gen.ReferenceIdeal
import proofs.«131765_j3607772528976_2_alg».proof.Proof.Gen.Pre_finite_inputs
import proofs.«131765_j3607772528976_2_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame: its run, the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- Both idealized programs end at the common value of Proof/Bridge.lean: the kernel program by its run read back, the
    reference by its run, its stages read at the kernel program's arguments (the two memories agree on them). -/
theorem algebraic : Cert.algebraic_KernelIdeal_ReferenceIdeal := by
  intro m ρ m' ρ' _ hagree
  refine ⟨fun c => Cert.KernelIdeal.Found.firstValue m c, fun c => Cert.KernelIdeal.Found.secondValue m c, ?_, ?_⟩
  · exact (θ_run Cert.KernelIdeal.defs _ _).mono (fun r h c =>
      ⟨(h c).1.trans (Cert.KernelIdeal.Found.kernel_first m c), (h c).2.1.trans (Cert.KernelIdeal.Found.kernel_second m c), (h c).2.2⟩)
      (Cert.KernelIdeal.Results.run m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.ReadP.val_main_v77_eq, (hagree c).1, (hagree c).2.1, (hagree c).2.2.1, (hagree c).2.2.2.1, (hagree c).2.2.2.2.2.1, (hagree c).2.2.2.2.2.2.1, (hagree c).2.2.2.2.2.2.2.1, (hagree c).2.2.2.2.2.2.2.2.1, (hagree c).2.2.2.2.2.2.2.2.2.1]
      exact Cert.KernelIdeal.Found.ref_first m c
    · rw [Cert.ReferenceIdeal.ReadP.val_main_v80_eq, (hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.2.2.1, (hagree c).2.2.2.2.2.2.2.2.2.2.2]
      exact Cert.KernelIdeal.Found.ref_second m c

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
